-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x640 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S32000x2048 : Shape := ⟨2, ![32000, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S32000x2048 : S_.BroadcastsInDim S32000x2048 (![] : Fin 0 → Fin S32000x2048.rank)
  reducesTo_S32000x2048_S_d0_1 : S32000x2048.ReducesTo [0, 1] S_

variable [Facts]

def fn {F : FTy → Type} [FloatOps F] (main_arg0 : FVec F S2048x2048 .f32) (main_arg1 : IVec S2048 32) (main_arg2 : FVec F S32000x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  main_v8
-- ==== Kernel.lean ====
abbrev S2048x2048 : Shape := ⟨2, ![2048, 2048]⟩
abbrev S2048 : Shape := ⟨1, ![2048]⟩
abbrev S32000x2048 : Shape := ⟨2, ![32000, 2048]⟩
abbrev S2048x32000 : Shape := ⟨2, ![2048, 32000]⟩
abbrev S2048x1 : Shape := ⟨2, ![2048, 1]⟩
abbrev S1024x2048 : Shape := ⟨2, ![1024, 2048]⟩
abbrev S640x2048 : Shape := ⟨2, ![640, 2048]⟩
abbrev S1024x640 : Shape := ⟨2, ![1024, 640]⟩
abbrev S1024x1 : Shape := ⟨2, ![1024, 1]⟩
abbrev S1024 : Shape := ⟨1, ![1024]⟩
abbrev S1024x1280 : Shape := ⟨2, ![1024, 1280]⟩

abbrev nBuf : Space → Nat
  | .hbm => 7
  | .vmem => 19
  | .smem => 0
  | _ => 0

abbrev bufTy : (tb : Table) → Fin (tcTables nBuf tb) → BufTy
  | .hbm, ⟨0, _⟩ => ⟨S2048x2048, .f32⟩
  | .hbm, ⟨1, _⟩ => ⟨S2048, .i32⟩
  | .hbm, ⟨2, _⟩ => ⟨S32000x2048, .f32⟩
  | .hbm, ⟨3, _⟩ => ⟨S2048x32000, .bf16⟩
  | .hbm, ⟨4, _⟩ => ⟨S2048x1, .f32⟩
  | .hbm, ⟨5, _⟩ => ⟨S2048x1, .f32⟩
  | .hbm, ⟨6, _⟩ => ⟨S2048x32000, .f32⟩
  | .local _ .vmem, ⟨0, _⟩ => ⟨S1024x2048, .f32⟩
  | .local _ .vmem, ⟨1, _⟩ => ⟨S640x2048, .f32⟩
  | .local _ .vmem, ⟨2, _⟩ => ⟨S640x2048, .f32⟩
  | .local _ .vmem, ⟨3, _⟩ => ⟨S1024x640, .bf16⟩
  | .local _ .vmem, ⟨4, _⟩ => ⟨S1024x640, .bf16⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1280, .bf16⟩
  | .local _ .vmem, ⟨12, _⟩ => ⟨S1024x1280, .bf16⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1280, .f32⟩
  | .local _ .vmem, ⟨18, _⟩ => ⟨S1024x1280, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v31 : BitVec 1 := Scalar.cmpi .eq arg1 c49_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S640x2048_S640x2048_0_0 : ∀ a, (![0, 0] : Fin 2 → Nat) a + S640x2048.size a ≤ S640x2048.size a
  h_S640x2048 : 0 < S640x2048.numel
  inb_S1024x640_S1024x640_0_0 : ∀ a, (![0, 0] : Fin 2 → Nat) a + S1024x640.size a ≤ S1024x640.size a
  h_S1024x640 : 0 < S1024x640.numel
  packedbf16_S1024x640_S1024x640_0_0 : (Rect.unit (s := S1024x640) ![0, 0] S1024x640.size inb_S1024x640_S1024x640_0_0).PackedRows (EltTy.packing .bf16)
  reduces_S1024x640_S1024 : S1024x640.Reduces [1] S1024
  shapeCasts_S1024_S1024x1 : S1024.ShapeCasts S1024x1
  broadcasts_S1024x1_S1024x640 : S1024x1.Broadcasts S1024x640
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  broadcasts_S1024x1_S1024x1280 : S1024x1.Broadcasts S1024x1280
  dot_S1024x2048_S640x2048_S1024x640_1_1_0_0_n_n_wf : DotDims.WF S1024x2048 S640x2048 S1024x640 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .f32 = 32 ∨ (Rect.block (s := S2048x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x2048.size a ≤ S32000x2048.size a
  hwx0_1 : ∀ i : grid0.Coords, EltTy.bits .f32 = 32 ∨ (Rect.block (s := S32000x2048) S640x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S2048x32000.size a
  hwx0_2 : ∀ i : grid0.Coords, EltTy.bits .bf16 = 32 ∨ (Rect.block (s := S2048x32000) S1024x640.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S2048x1.size a
  hwx0_3 : ∀ i : grid0.Coords, EltTy.bits .f32 = 32 ∨ (Rect.block (s := S2048x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S2048x1.size a
  hwx0_4 : ∀ i : grid0.Coords, EltTy.bits .f32 = 32 ∨ (Rect.block (s := S2048x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1280.size a ≤ S2048x32000.size a
  hwx1_0 : ∀ i : grid1.Coords, EltTy.bits .bf16 = 32 ∨ (Rect.block (s := S2048x32000) S1024x1280.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S2048x1.size a
  hwx1_1 : ∀ i : grid1.Coords, EltTy.bits .f32 = 32 ∨ (Rect.block (s := S2048x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S2048x1.size a
  hwx1_2 : ∀ i : grid1.Coords, EltTy.bits .f32 = 32 ∨ (Rect.block (s := S2048x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1280.size a ≤ S2048x32000.size a
  hwx1_3 : ∀ i : grid1.Coords, EltTy.bits .f32 = 32 ∨ (Rect.block (s := S2048x32000) S1024x1280.size (cc1_transform_3 i) (hinb1_3 i)).WholeWords (EltTy.packing .f32)

variable [Facts₀]

def dot_S1024x2048_S640x2048_S1024x640_1_1_0_0_n_n : DotDims S1024x2048 S640x2048 S1024x640 where
  lhsContracting := [1]
  rhsContracting := [1]
  lhsNonContracting := [0]
  rhsNonContracting := [0]
  lhsBatch := []
  rhsBatch := []
  wf := dot_S1024x2048_S640x2048_S1024x640_1_1_0_0_n_n_wf

abbrev win0_0 : Pipeline.Window sig grid0 :=
  Pipeline.Window.ofSpec (Memref.whole main_arg0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S640x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x640.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v0_0) S1024x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S2048 : Shape := ⟨1, ![2048]⟩
abbrev S32000x2048 : Shape := ⟨2, ![32000, 2048]⟩
abbrev S2048x32000 : Shape := ⟨2, ![2048, 32000]⟩
abbrev S_ : Shape := ⟨0, ![]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .i32⟩
  | .hbm, ⟨2, _⟩ => ⟨S32000x2048, .f32⟩
  | .hbm, ⟨3, _⟩ => ⟨S2048x32000, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S2048x1, .f32⟩
  | .hbm, ⟨10, _⟩ => ⟨S2048x32000, .f32⟩
  | .hbm, ⟨11, _⟩ => ⟨S2048x32000, .f32⟩
  | .hbm, ⟨12, _⟩ => ⟨S2048x32000, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x32000, .f32⟩
  | .hbm, ⟨17, _⟩ => ⟨S2048x32000, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  dot_S2048x2048_S32000x2048_S2048x32000_1_1_0_0_n_n_wf : DotDims.WF S2048x2048 S32000x2048 S2048x32000 [1] [1] [0] [0] [] []

variable [Facts₀]

def dot_S2048x2048_S32000x2048_S2048x32000_1_1_0_0_n_n : DotDims S2048x2048 S32000x2048 S2048x32000 where
  lhsContracting := [1]
  rhsContracting := [1]
  lhsNonContracting := [0]
  rhsNonContracting := [0]
  lhsBatch := []
  rhsBatch := []
  wf := dot_S2048x2048_S32000x2048_S2048x32000_1_1_0_0_n_n_wf

class Facts : Prop extends Facts₀ where

variable [Facts]
-- ==== Proof.KB.R0Runs.lean ====
/-
  The first pallas_call (the matmul tile with the running row maximum and row sum), region 0 of @main: what its body's
  runs are stated over. The grid is 2 token tiles by 50 vocabulary tiles, walked row-major, so point t has vocabulary
  tile t mod 50. The body branches twice on that coordinate: at tile 0 it resets the two running columns kept in
  scratch (maximum to -∞, sum to 0); at tile 49 it copies them into the two small output blocks. Hence three kinds of
  point: the first tile of a row of tiles (reset, no copy), a middle tile (neither), the last tile (copy, no reset).
  The two small outputs are idle — untouched and not written back — at every point but the last tile's.
  Everything here is stated at a parameter V: the TensorCore's buffer contents when the region is entered.
-/
import proofs.«107961_j68968584839721_2_alg».proof.Proof.Gen.Kernel.Launch
import proofs.«107961_j68968584839721_2_alg».proof.Proof.Gen.Kernel.Skeleton
import proofs.«107961_j68968584839721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token-tile input's staging buffer holds its block at every point, fetched there or not (it is fetched once
    per row of tiles and its index does not move in between). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight-tile input's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The body's two branch conditions, decided over the grid -/

/-- "This is vocabulary tile 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is vocabulary tile 49", as the body computes it. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the two small outputs are idle and not written back; -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at the last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated. -/
abbrev VO0_2 : View sig .tc .vmem S1024x640 .bf16 := (Memref.whole cc0_stg2_0 : Memref sig .tc .vmem S1024x640 .bf16).view
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
/-- Each window's current staging memref at point t, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two scratch columns: the running maximum and the running sum. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers that belong to the other pallas_call, each whole at some contents: they ride through this
    region untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region beside the windows: the two scratch columns at anything, the other call's
    staging buffers at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA; rw [scopedRest0_eq]; simp only [scM0_0, scM0_1, owns_whole]; try rfl

end Cert.Kernel.R0

end
-- ==== Proof.KB.R0RunA.lean ====
/-
  The body's run at the first vocabulary tile of a row of tiles: the two running columns are reset, then the tile is
  computed from the reset values. The two small outputs are idle: handed back as found.
-/
import proofs.«107961_j68968584839721_2_alg».proof.Proof.KB.R0Runs

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the logits block and in the two scratch columns at a first tile, with
    the proof that from the two input blocks (at x0, x1), the outputs and scratch at anything (the idle outputs at
    what they held), the body runs to its return with the inputs as they were and those pieces written. -/
noncomputable def kernelRun0_A (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S640x2048 .f32) :
    Σ' (L2 : List (View.Piece (Elt F) S1024x640 .bf16)), Σ' (LS0 : List (View.Piece (Elt F) S1024x1 .f32)), { LS1 : List (View.Piece (Elt F) S1024x1 .f32) //
      ∀ (xi3 xi4 : Vec F S1024x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun xi3 xi4 E K => ?run⟩
  case run =>
    haveI : Fact (cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.R0

end
-- ==== Proof.KB.R0RunB.lean ====
/-
  The body's run at a middle vocabulary tile: no reset, no copy-out. The running columns come in at what the tile
  before left; the two small outputs are idle.
-/
import proofs.«107961_j68968584839721_2_alg».proof.Proof.KB.R0RunA

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a middle tile, with the run's proof: the scratch columns come in at xs0, xs1. -/
noncomputable def kernelRun0_B (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S640x2048 .f32) (xs0 xs1 : Vec F S1024x1 .f32) :
    Σ' (L2 : List (View.Piece (Elt F) S1024x640 .bf16)), Σ' (LS0 : List (View.Piece (Elt F) S1024x1 .f32)), { LS1 : List (View.Piece (Elt F) S1024x1 .f32) //
      ∀ (xi3 xi4 : Vec F S1024x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun xi3 xi4 E K => ?run⟩
  case run =>
    haveI : Fact (¬cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.R0

end
-- ==== Proof.KB.R0RunC.lean ====
/-
  The body's run at the last vocabulary tile of a row of tiles: no reset; after the tile's update the two running
  columns are copied into the two small output blocks.
-/
import proofs.«107961_j68968584839721_2_alg».proof.Proof.KB.R0RunB

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a last tile, with the run's proof: the scratch columns come in at xs0, xs1,
    the two small outputs at anything and leave with their pieces written. -/
noncomputable def kernelRun0_C (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S640x2048 .f32) (xs0 xs1 : Vec F S1024x1 .f32) :
    Σ' (L2 : List (View.Piece (Elt F) S1024x640 .bf16)), Σ' (L3 : List (View.Piece (Elt F) S1024x1 .f32)), Σ' (L4 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, ?_, ?_, fun E K => ?run⟩
  case run =>
    haveI : Fact (¬cond0_0 i) := ⟨hc0⟩
    haveI : Fact (cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.R0

end
-- ==== Proof.KB.R0Frame.lean ====
/-
  Region 0 (the matmul tile with the running row maximum and row sum): what its outputs and its two scratch columns
  hold after each grid point, the invariant that carries the scratch columns from one point to the next, the
  pipeline's proof data, and the body obligation at every point.

  After point t the logits block holds that tile's product; the scratch columns hold the running (maximum, sum) of the
  row of tiles so far — reset at a first tile, updated from the previous point's columns otherwise; the two small output
  blocks hold the scratch columns at a last tile and are idle elsewhere. Nothing the body computes is transcribed here:
  each case's contents are the pieces its run found, read back.
-/
import proofs.«107961_j68968584839721_2_alg».proof.Proof.KB.R0RunC

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves, and that its pieces cover -/

section Cases
variable (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
  (x0 : Vec F S1024x2048 .f32) (x1 : Vec F S640x2048 .f32)

/-- A placeholder for an idle small output: nothing consults it (the window is neither written back nor read at
    the next point). -/
def idle0_3 : Vec F S1024x1 .f32 := VO0_3.read (Elt F) (VO0_3.writes (Elt F) VO0_3.junk [])
def idle0_4 : Vec F S1024x1 .f32 := VO0_4.read (Elt F) (VO0_4.writes (Elt F) VO0_4.junk [])

theorem cover0_A_2 (hc0 : cond0_0 i) (hc1 : ¬cond0_1 i) (y : S1024x640.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S1024x640.size (by sl_kernel_rfl) y
theorem scover0_A_0 (hc0 : cond0_0 i) (hc1 : ¬cond0_1 i) (y : S1024x1.Idx) :
    ∃ pc ∈ (kernelRun0_A c i arg2 harg2 arg3 harg3 arg4 harg4 arg5 harg5 arg6 harg6 arg7 harg7 arg8 harg8 hc0 hc1 x0 x1).2.1, y ∈ pc.1.set :=
  View.cover_of_tiledL (kernelRun0_A c i arg2 harg2 arg3 harg3 arg4 harg4 arg5 harg5 arg6 harg6 arg7 harg7 arg8 harg8 hc0 hc1 x0 x1).2.1 S1024x1.size (by sl_kernel_rfl) y
theorem scover0_A_1 (hc0 : cond0_0 i) (hc1 : ¬cond0_1 i) (y : S1024x1.Idx) :
    ∃ pc ∈ (kernelRun0_A c i arg2 harg2 arg3 harg3 arg4 harg4 arg5 harg5 arg6 harg6 arg7 harg7 arg8 harg8 hc0 hc1 x0 x1).2.2.1, y ∈ pc.1.set :=
  View.cover_of_tiledL (kernelRun0_A c i arg2 harg2 arg3 harg3 arg4 harg4 arg5 harg5 arg6 harg6 arg7 harg7 arg8 harg8 hc0 hc1 x0 x1).2.2.1 S1024x1.size (by sl_kernel_rfl) y

/-- What a first tile leaves: (logits block, idle, idle, running maximum, running sum). -/
def caseA (hc0 : cond0_0 i) (hc1 : ¬cond0_1 i) : Vec F S1024x640 .bf16 × Vec F S1024x1 .f32 × Vec F S1024x1 .f32 × Vec F S1024x1 .f32 × Vec F S1024x1 .f32 :=
  (VO0_2.read (Elt F) (VO0_2.writes (Elt F) VO0_2.junk (kernelRun0_A c i arg2 harg2 arg3 harg3 arg4 harg4 arg5 harg5 arg6 harg6 arg7 harg7 arg8 harg8 hc0 hc1 x0 x1).1),
   idle0_3, idle0_4,
   VS0_0.read (Elt F) (VS0_0.writes (Elt F) VS0_0.junk (kernelRun0_A c i arg2 harg2 arg3 harg3 arg4 harg4 arg5 harg5 arg6 harg6 arg7 harg7 arg8 harg8 hc0 hc1 x0 x1).2.1),
   VS0_1.read (Elt F) (VS0_1.writes (Elt F) VS0_1.junk (kernelRun0_A c i arg2 harg2 arg3 harg3 arg4 harg4 arg5 harg5 arg6 harg6 arg7 harg7 arg8 harg8 hc0 hc1 x0 x1).2.2.1))

variable (xs0 xs1 : Vec F S1024x1 .f32)

theorem cover0_B_2 (hc0 : ¬cond0_0 i) (hc1 : ¬cond0_1 i) (y : S1024x640.Idx) :
    ∃ pc ∈ (kernelRun0_B c i arg2 harg2 arg3 harg3 arg4 harg4 arg5 harg5 arg6 harg6 arg7 harg7 arg8 harg8 hc0 hc1 x0 x1 xs0 xs1).1, y ∈ pc.1.set :=
  View.cover_of_tiledL (kernelRun0_B c i arg2 harg2 arg3 harg3 arg4 harg4 arg5 harg5 arg6 harg6 arg7 harg7 arg8 harg8 hc0 hc1 x0 x1 xs0 xs1).1 S1024x640.size (by sl_kernel_rfl) y
theorem scover0_B_0 (hc0 : ¬cond0_0 i) (hc1 : ¬cond0_1 i) (y : S1024x1.Idx) :
    ∃ pc ∈ (kernelRun0_B c i arg2 harg2 arg3 harg3 arg4 harg4 arg5 harg5 arg6 harg6 arg7 harg7 arg8 harg8 hc0 hc1 x0 x1 xs0 xs1).2.1, y ∈ pc.1.set :=
  View.cover_of_tiledL (kernelRun0_B c i arg2 harg2 arg3 harg3 arg4 harg4 arg5 harg5 arg6 harg6 arg7 harg7 arg8 harg8 hc0 hc1 x0 x1 xs0 xs1).2.1 S1024x1.size (by sl_kernel_rfl) y
theorem scover0_B_1 (hc0 : ¬cond0_0 i) (hc1 : ¬cond0_1 i) (y : S1024x1.Idx) :
    ∃ pc ∈ (kernelRun0_B c i arg2 harg2 arg3 harg3 arg4 harg4 arg5 harg5 arg6 harg6 arg7 harg7 arg8 harg8 hc0 hc1 x0 x1 xs0 xs1).2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.1 S1024x1.size (by sl_kernel_rfl) y

/-- What a middle tile leaves, over the columns the point before left. -/
def caseB (hc0 : ¬cond0_0 i) (hc1 : ¬cond0_1 i) : Vec F S1024x640 .bf16 × Vec F S1024x1 .f32 × Vec F S1024x1 .f32 × Vec F S1024x1 .f32 × Vec F S1024x1 .f32 :=
  (VO0_2.read (Elt F) (VO0_2.writes (Elt F) VO0_2.junk (kernelRun0_B c i arg2 harg2 arg3 harg3 arg4 harg4 arg5 harg5 arg6 harg6 arg7 harg7 arg8 harg8 hc0 hc1 x0 x1 xs0 xs1).1),
   idle0_3, idle0_4,
   VS0_0.read (Elt F) (VS0_0.writes (Elt F) VS0_0.junk (kernelRun0_B c i arg2 harg2 arg3 harg3 arg4 harg4 arg5 harg5 arg6 harg6 arg7 harg7 arg8 harg8 hc0 hc1 x0 x1 xs0 xs1).2.1),
   VS0_1.read (Elt F) (VS0_1.writes (Elt F) VS0_1.junk (kernelRun0_B c i arg2 harg2 arg3 harg3 arg4 harg4 arg5 harg5 arg6 harg6 arg7 harg7 arg8 harg8 hc0 hc1 x0 x1 xs0 xs1).2.2.1))

theorem cover0_C_2 (hc0 : ¬cond0_0 i) (hc1 : cond0_1 i) (y : S1024x640.Idx) :
    ∃ pc ∈ (kernelRun0_C c i arg2 harg2 arg3 harg3 arg4 harg4 arg5 harg5 arg6 harg6 arg7 harg7 arg8 harg8 hc0 hc1 x0 x1 xs0 xs1).1, y ∈ pc.1.set :=
  View.cover_of_tiledL (kernelRun0_C c i arg2 harg2 arg3 harg3 arg4 harg4 arg5 harg5 arg6 harg6 arg7 harg7 arg8 harg8 hc0 hc1 x0 x1 xs0 xs1).1 S1024x640.size (by sl_kernel_rfl) y
theorem cover0_C_3 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.1, y ∈ pc.1.set :=
  View.cover_of_tiledL (kernelRun0_C c i arg2 harg2 arg3 harg3 arg4 harg4 arg5 harg5 arg6 harg6 arg7 harg7 arg8 harg8 hc0 hc1 x0 x1 xs0 xs1).2.1 S1024x1.size (by sl_kernel_rfl) y
theorem cover0_C_4 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.1 S1024x1.size (by sl_kernel_rfl) y
theorem scover0_C_0 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.1 S1024x1.size (by sl_kernel_rfl) y
theorem scover0_C_1 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.2.1 S1024x1.size (by sl_kernel_rfl) y

/-- What a last tile leaves: also the two small output blocks. -/
def caseC (hc0 : ¬cond0_0 i) (hc1 : cond0_1 i) : Vec F S1024x640 .bf16 × Vec F S1024x1 .f32 × Vec F S1024x1 .f32 × Vec F S1024x1 .f32 × Vec F S1024x1 .f32 :=
  (VO0_2.read (Elt F) (VO0_2.writes (Elt F) VO0_2.junk (kernelRun0_C c i arg2 harg2 arg3 harg3 arg4 harg4 arg5 harg5 arg6 harg6 arg7 harg7 arg8 harg8 hc0 hc1 x0 x1 xs0 xs1).1),
   VO0_3.read (Elt F) (VO0_3.writes (Elt F) VO0_3.junk (kernelRun0_C c i arg2 harg2 arg3 harg3 arg4 harg4 arg5 harg5 arg6 harg6 arg7 harg7 arg8 harg8 hc0 hc1 x0 x1 xs0 xs1).2.1),
   VO0_4.read (Elt F) (VO0_4.writes (Elt F) VO0_4.junk (kernelRun0_C c i arg2 harg2 arg3 harg3 arg4 harg4 arg5 harg5 arg6 harg6 arg7 harg7 arg8 harg8 hc0 hc1 x0 x1 xs0 xs1).2.2.1),
   VS0_0.read (Elt F) (VS0_0.writes (Elt F) VS0_0.junk (kernelRun0_C c i arg2 harg2 arg3 harg3 arg4 harg4 arg5 harg5 arg6 harg6 arg7 harg7 arg8 harg8 hc0 hc1 x0 x1 xs0 xs1).2.2.2.1),
   VS0_1.read (Elt F) (VS0_1.writes (Elt F) VS0_1.junk (kernelRun0_C c i arg2 harg2 arg3 harg3 arg4 harg4 arg5 harg5 arg6 harg6 arg7 harg7 arg8 harg8 hc0 hc1 x0 x1 xs0 xs1).2.2.2.2.1))

end Cases

/-! ## What the outputs and the scratch columns hold after each point -/

/-- Each case at a grid point, on the memrefs and input blocks the pipeline calls the body with there. -/
abbrev atA (c : Dev nD) (t : Fin cfg0.N) (h0 : t.val % 50 = 0) (h1 : ¬t.val % 50 = 49) : Vec F S1024x640 .bf16 × Vec F S1024x1 .f32 × Vec F S1024x1 .f32 × Vec F S1024x1 .f32 × Vec F S1024x1 .f32 :=
  caseA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) ((hcond0_0 t).mpr h0) (fun h => h1 ((hcond0_1 t).mp h))
abbrev atB (c : Dev nD) (t : Fin cfg0.N) (h0 : ¬t.val % 50 = 0) (h1 : ¬t.val % 50 = 49) (xs0 xs1 : Vec F S1024x1 .f32) : Vec F S1024x640 .bf16 × Vec F S1024x1 .f32 × Vec F S1024x1 .f32 × Vec F S1024x1 .f32 × Vec F S1024x1 .f32 :=
  caseB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) xs0 xs1 (fun h => h0 ((hcond0_0 t).mp h)) (fun h => h1 ((hcond0_1 t).mp h))
abbrev atC (c : Dev nD) (t : Fin cfg0.N) (h0 : ¬t.val % 50 = 0) (h1 : t.val % 50 = 49) (xs0 xs1 : Vec F S1024x1 .f32) : Vec F S1024x640 .bf16 × Vec F S1024x1 .f32 × Vec F S1024x1 .f32 × Vec F S1024x1 .f32 × Vec F S1024x1 .f32 :=
  caseC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) xs0 xs1 (fun h => h0 ((hcond0_0 t).mp h)) ((hcond0_1 t).mpr h1)

/-- THE ACCUMULATION: (logits block, small output 1, small output 2, running maximum, running sum) after the body at
    position n, by recursion on the position — the case the point is in, a middle or last tile over the columns the
    point before left. -/
def outsAt0 (c : Dev nD) : (n : ℕ) → n < cfg0.N → Vec F S1024x640 .bf16 × Vec F S1024x1 .f32 × Vec F S1024x1 .f32 × Vec F S1024x1 .f32 × Vec F S1024x1 .f32
  | 0, hn => atA V c ⟨0, hn⟩ (Nat.zero_mod _) (by show ¬ (0 % 50 = 49); decide)
  | n + 1, hn =>
    if h0 : (n + 1) % 50 = 0 then
      if h1 : (n + 1) % 50 = 49 then False.elim (by omega)
      else atA V c ⟨n + 1, hn⟩ h0 h1
    else
      if h1 : (n + 1) % 50 = 49 then
        atC V c ⟨n + 1, hn⟩ h0 h1 (outsAt0 c n (Nat.lt_of_succ_lt hn)).2.2.2.1 (outsAt0 c n (Nat.lt_of_succ_lt hn)).2.2.2.2
      else
        atB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 50 = 0) (h1 : ¬t.val % 50 = 49) :
    outsAt0 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 V c t.val t.isLt = atB V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 50 = 0) (h1 : t.val % 50 = 49) :
    outsAt0 V c t.val t.isLt = atC V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands over (every scratch at anything). Afterwards: the two scratch
    columns at what the point before left in them, the other call's staging buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest0 (F := F) c) ∗ (∃ r, prngReg c r)) := by
  cases n with
  | zero => exact absurd rfl hz
  | succ n => rfl

/-! ## The pipeline's proof data -/

/-- The arrays as the region finds them; after the body at point t each input's buffer at its block and the
    outputs' at the accumulation's components; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.Kernel.R0

end
-- ==== Proof.KB.R0Body.lean ====
/-
  Region 0: the body obligation. At each grid point the pipeline hands the body the invariant (the two scratch columns
  at what the point before left, or at anything before the first point), its two input blocks, and its three output
  buffers; the body returns the invariant at this point's columns and each window's buffer at what the proof data says.
  Which of the three runs applies is decided by the point's vocabulary tile (t mod 50 = 0, = 49, or neither).
-/
import proofs.«107961_j68968584839721_2_alg».proof.Proof.KB.R0Frame

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 50 = 0
  · have h1 : ¬t.val % 50 = 49 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [outsAt0_A V c t h0 h1]
    unfold atA caseA; (try dsimp only)
    by_cases hz : t.val = 0
    · rw [PhiS0_castSucc V c t, PhiS0_zero V c _ _ hz, PhiA0_eq]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_A_0 c _ _ _ _ _ _ _ _ _ _ _ _ _ _ _ _ _ _ _)
          isplitl [HS1]
          · unfold owns; iexists _; isplitr; swap; (· iexact HS1); ipureintro; exact View.read_writes_of_cover _ _ _ _ _ (scover0_A_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_A_2 c _ _ _ _ _ _ _ _ _ _ _ _ _ _ _ _ _ _ _)
      isplitl [H3]; · iexists _; iexact H3
      iexists _; iexact H4
    · rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexists _; iexact HS0
      isplitl [HS1]; · iexists _; iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_A_0 c _ _ _ _ _ _ _ _ _ _ _ _ _ _ _ _ _ _ _)
          isplitl [HS1]
          · unfold owns; iexists _; isplitr; swap; (· iexact HS1); ipureintro; exact View.read_writes_of_cover _ _ _ _ _ (scover0_A_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_A_2 c _ _ _ _ _ _ _ _ _ _ _ _ _ _ _ _ _ _ _)
      isplitl [H3]; · iexists _; iexact H3
      iexists _; iexact H4
  · have hz : t.val ≠ 0 := by intro h; rw [h] at h0; exact h0 (Nat.zero_mod _)
    by_cases h1 : t.val % 50 = 49
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold atC caseC; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_C_0 c _ _ _ _ _ _ _ _ _ _ _ _ _ _ _ _ _ _ _ _ _)
          isplitl [HS1]
          · unfold owns; iexists _; isplitr; swap; (· iexact HS1); ipureintro; exact View.read_writes_of_cover _ _ _ _ _ (scover0_C_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_C_2 c _ _ _ _ _ _ _ _ _ _ _ _ _ _ _ _ _ _ _ _ _)
      isplitl [H3]
      · unfold owns; iexists _; isplitr; swap; (· iexact H3); ipureintro; exact View.read_writes_of_cover _ _ _ _ _ (cover0_C_3 c _ _ _ _ _ _ _ _ _ _ _ _ _ _ _ _ _ _ _ _ _)
      unfold owns; iexists _; isplitr; swap; (· iexact H4); ipureintro; exact View.read_writes_of_cover _ _ _ _ _ (cover0_C_4 c _ _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold atB caseB; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_B_0 c _ _ _ _ _ _ _ _ _ _ _ _ _ _ _ _ _ _ _ _ _)
          isplitl [HS1]
          · unfold owns; iexists _; isplitr; swap; (· iexact HS1); ipureintro; exact View.read_writes_of_cover _ _ _ _ _ (scover0_B_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_B_2 c _ _ _ _ _ _ _ _ _ _ _ _ _ _ _ _ _ _ _ _ _)
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the columns' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Region

end Cert.Kernel.R0

end
-- ==== Proof.KB.R1.lean ====
import proofs.«107961_j68968584839721_2_alg».proof.Proof.Gen.Kernel.Launch
import proofs.«107961_j68968584839721_2_alg».proof.Proof.Gen.Kernel.Skeleton
import proofs.«107961_j68968584839721_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 of @main: the second pallas_call, the normalising kernel

At a parameter `V` — the TensorCore's buffer contents when the region is entered — the pipeline's proof data:
each window's block at a grid point, what the body leaves in the output's staging buffer (the exponential of the
logits block minus the row maxima, divided by the row sums, both columns broadcast along the row), the body's
triple, and the body obligation at every grid point.
-/

-- membership in a rectangle of the block's extents: the structural look recurses once per coordinate of the long axes
set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the
    block index has not moved: the row maxima's index map reads the first grid axis only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (the row sums,
    as the row maxima). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole logits (and output) block. -/
abbrev r1_0 : Rect S1024x1280 := Rect.unit (s := S1024x1280) ![0, 0] S1024x1280.size inb_S1024x1280_S1024x1280_0_0
/-- The whole column block of the row maxima and of the row sums. -/
abbrev r1_1 : Rect S1024x1 := Rect.unit (s := S1024x1) ![0, 0] S1024x1.size inb_S1024x1_S1024x1_0_0

/-! ## What the body leaves in the output window's buffer -/

/-- Window 3's staging buffer after the body, from the input windows' blocks: its one store, of the whole block,
    of the payload of the three loads. -/
def out1_3 (x0 : Vec F S1024x1280 .bf16) (x1 : Vec F S1024x1 .f32) (x2 : Vec F S1024x1 .f32) : Vec F S1024x1280 .f32 :=
  View.canon [⟨r1_0, k1_pay1 (View.ld x0 r1_0) (View.ld x1 r1_1) (View.ld x2 r1_1)⟩]

/-- The one store tiles the buffer (checked by evaluation), so it covers it. -/
theorem cover1_3 (p0 : Vec F S1024x1280 .f32) (y : S1024x1280.Idx) :
    ∃ pc ∈ ([⟨r1_0, p0⟩] : List (View.Piece (Elt F) S1024x1280 .f32)), y ∈ pc.1.set :=
  View.cover_of_tiled [⟨r1_0, p0⟩] S1024x1280.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs. -/
theorem sound_kernel1 (c : Dev nD) (E : Set ℕ) (i : grid1.Coords) (arg2 : Memref sig .tc .vmem S1024x1280 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1280 .f32) (harg5 : arg5.IsWhole)
    (x0 : Vec F S1024x1280 .bf16) (x1 : Vec F S1024x1 .f32) (x2 : Vec F S1024x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.R1

end
-- ==== Proof.KB.Run.lean ====
/-
  The whole run of @main: two kernel regions, no host operation between them. The buffer contents at the three
  boundaries are a fold from the launch memory: at launch; after region 0, its five arrays at what the pipeline's
  write-backs leave (the two inputs as entered, the logits and the two columns of row statistics as folded from the
  proof data), everything else as entered; after region 1 likewise for its four arrays. Each region is a segment over
  the thread state "every unscoped buffer at the boundary's contents, the generator register at some state, nothing
  owed"; the run's post names EVERY unscoped buffer at the last boundary's contents, from which the frame (each
  argument walks back through the fold to the launch memory) and the result's value are read.
-/
import proofs.«107961_j68968584839721_2_alg».proof.Proof.KB.R0Body
import proofs.«107961_j68968584839721_2_alg».proof.Proof.KB.R1

set_option maxRecDepth 16384

noncomputable section

namespace Cert.Kernel.Run

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit (region 1's entry). -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At region 1's exit. -/
def W2 (c : Dev nD) : Valuation τ sig (Elt F) :=
  Pipeline.withArrays spec1 c (W1 m ρ c) fun w => (R1.dat1 (V1 m ρ) c).arrAt w cfg1.N
theorem W2_arr (c : Dev nD) (w : Fin cfg1.W) :
    W2 m ρ c (Proc.devRef .tc (Pipeline.arrRef spec1 w)) = (R1.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((R0.dat0 (V0 m ρ) c).arrAt_in 1 rfl _).trans (R0.A_eq0 (V0 m ρ) c 1))
    _ = m ((c : Thread nD τ).loc main_arg2) := rfl
/-- The result's array at the end is what region 1's write-backs leave. -/
theorem W2_main_v1 (c : Dev nD) : W2 m ρ c (Proc.devRef .tc main_v1) = (R1.dat1 (V1 m ρ) c).arrAt 3 cfg1.N :=
  W2_arr m ρ c 3
/-- Region 1 finds the logits and the two columns of row statistics at what region 0's write-backs left. -/
theorem V1_main_v0_0 (c : Dev nD) : V1 m ρ c main_v0_0 = (R0.dat0 (V0 m ρ) c).arrAt 2 cfg0.N := W1_arr m ρ c 2
theorem V1_main_v0_1 (c : Dev nD) : V1 m ρ c main_v0_1 = (R0.dat0 (V0 m ρ) c).arrAt 3 cfg0.N := W1_arr m ρ c 3
theorem V1_main_v0_2 (c : Dev nD) : V1 m ρ c main_v0_2 = (R0.dat0 (V0 m ρ) c).arrAt 4 cfg0.N := W1_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered at the launch contents, left at W1. Its arrays are split out of the
    unscoped buffers and put back at the exit contents; the generator register goes into the invariant and comes
    back; the invariant starts as the launch's form and ends giving it back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := R0.hin0 (V0 m ρ) c
    unfold Pipeline.ΦA at h
    rw [show (pdats m ρ 0 c).Φ 0 = (R0.dat0 (V0 m ρ) c).Φ 0 from rfl]
    iintro ⟨Hp, -, Hr⟩
    iapply h
    isplitl [Hr]; · iexact Hr
    iexact Hp
  hout c := by
    rw [Pipeline.ownSems0_none, show (pdats m ρ 0 c).Φ (Fin.last _) = (R0.dat0 (V0 m ρ) c).Φ (Fin.last cfg0.N) from rfl]
    have h := R0.hout0 (V0 m ρ) c
    unfold Pipeline.ΦA at h
    iintro HΦ
    ihave H' := h $$ HΦ
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at W1, left at W2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result named: the result's array ends at what region 1's write-backs leave, the arguments as
    launched. -/
theorem run_result : θ_run defs (onTc (τ := τ) (main (F := F))) ⟨m, fun _ => 0, ρ⟩ (fun r => ∀ c : Dev nD,
      r.2.mem ((c.tc : Thread nD τ).loc main_v1) = (R1.dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.Kernel.Run

end
-- ==== Proof.KI.R0Runs.lean ====
/-
  The first pallas_call (the matmul tile with the running row maximum and row sum), region 0 of @main: what its body's
  runs are stated over. The grid is 2 token tiles by 50 vocabulary tiles, walked row-major, so point t has vocabulary
  tile t mod 50. The body branches twice on that coordinate: at tile 0 it resets the two running columns kept in
  scratch (maximum to -∞, sum to 0); at tile 49 it copies them into the two small output blocks. Hence three kinds of
  point: the first tile of a row of tiles (reset, no copy), a middle tile (neither), the last tile (copy, no reset).
  The two small outputs are idle — untouched and not written back — at every point but the last tile's.
  Everything here is stated at a parameter V: the TensorCore's buffer contents when the region is entered.
-/
import proofs.«107961_j68968584839721_2_alg».proof.Proof.Gen.KernelIdeal.Launch
import proofs.«107961_j68968584839721_2_alg».proof.Proof.Gen.KernelIdeal.Skeleton
import proofs.«107961_j68968584839721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token-tile input's staging buffer holds its block at every point, fetched there or not (it is fetched once
    per row of tiles and its index does not move in between). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight-tile input's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The body's two branch conditions, decided over the grid -/

/-- "This is vocabulary tile 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 50 = 0 :=
  (by decide +kernel : ∀ t : Fin grid0.N, cond0_0 (grid0.coords t) ↔ t.val % 50 = 0)

/-- "This is vocabulary tile 49", as the body computes it. -/
abbrev cond0_1 (i : grid0.Coords) : Prop := k0_cond2 i = 1#1
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last tile the two small outputs are idle and not written back; -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at the last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated. -/
abbrev VO0_2 : View sig .tc .vmem S1024x640 .bf16 := (Memref.whole cc0_stg2_0 : Memref sig .tc .vmem S1024x640 .bf16).view
abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
/-- Each window's current staging memref at point t, as the pipeline passes it, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S640x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two scratch columns: the running maximum and the running sum. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers that belong to the other pallas_call, each whole at some contents: they ride through this
    region untouched. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What the launch hands the region beside the windows: the two scratch columns at anything, the other call's
    staging buffers at anything, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA; rw [scopedRest0_eq]; simp only [scM0_0, scM0_1, owns_whole]; try rfl

end Cert.KernelIdeal.R0

end
-- ==== Proof.KI.R0RunA.lean ====
/-
  The body's run at the first vocabulary tile of a row of tiles: the two running columns are reset, then the tile is
  computed from the reset values. The two small outputs are idle: handed back as found.
-/
import proofs.«107961_j68968584839721_2_alg».proof.Proof.KI.R0Runs

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the logits block and in the two scratch columns at a first tile, with
    the proof that from the two input blocks (at x0, x1), the outputs and scratch at anything (the idle outputs at
    what they held), the body runs to its return with the inputs as they were and those pieces written. -/
noncomputable def kernelRun0_A (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x2048 .f32) (x1 : Vec F S640x2048 .f32) :
    Σ' (L2 : List (View.Piece (Elt F) S1024x640 .bf16)), Σ' (LS0 : List (View.Piece (Elt F) S1024x1 .f32)), { LS1 : List (View.Piece (Elt F) S1024x1 .f32) //
      ∀ (xi3 xi4 : Vec F S1024x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun xi3 xi4 E K => ?run⟩
  case run =>
    haveI : Fact (cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.R0

end
-- ==== Proof.KI.R0RunB.lean ====
/-
  The body's run at a middle vocabulary tile: no reset, no copy-out. The running columns come in at what the tile
  before left; the two small outputs are idle.
-/
import proofs.«107961_j68968584839721_2_alg».proof.Proof.KI.R0RunA

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a middle tile, with the run's proof: the scratch columns come in at xs0, xs1. -/
noncomputable def kernelRun0_B (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x2048 .f32) (x1 : Vec F S640x2048 .f32) (xs0 xs1 : Vec F S1024x1 .f32) :
    Σ' (L2 : List (View.Piece (Elt F) S1024x640 .bf16)), Σ' (LS0 : List (View.Piece (Elt F) S1024x1 .f32)), { LS1 : List (View.Piece (Elt F) S1024x1 .f32) //
      ∀ (xi3 xi4 : Vec F S1024x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun xi3 xi4 E K => ?run⟩
  case run =>
    haveI : Fact (¬cond0_0 i) := ⟨hc0⟩
    haveI : Fact (¬cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.R0

end
-- ==== Proof.KI.R0RunC.lean ====
/-
  The body's run at the last vocabulary tile of a row of tiles: no reset; after the tile's update the two running
  columns are copied into the two small output blocks.
-/
import proofs.«107961_j68968584839721_2_alg».proof.Proof.KI.R0RunB

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave at a last tile, with the run's proof: the scratch columns come in at xs0, xs1,
    the two small outputs at anything and leave with their pieces written. -/
noncomputable def kernelRun0_C (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x2048 .f32) (x1 : Vec F S640x2048 .f32) (xs0 xs1 : Vec F S1024x1 .f32) :
    Σ' (L2 : List (View.Piece (Elt F) S1024x640 .bf16)), Σ' (L3 : List (View.Piece (Elt F) S1024x1 .f32)), Σ' (L4 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, ?_, ?_, fun E K => ?run⟩
  case run =>
    haveI : Fact (¬cond0_0 i) := ⟨hc0⟩
    haveI : Fact (cond0_1 i) := ⟨hc1⟩
    simp only [cc0__kernel_a_eq_skeleton]; unfold cc0__kernel_a_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.R0

end
-- ==== Proof.KI.R0Frame.lean ====
/-
  Region 0 (the matmul tile with the running row maximum and row sum): what its outputs and its two scratch columns
  hold after each grid point, the invariant that carries the scratch columns from one point to the next, the
  pipeline's proof data, and the body obligation at every point.

  After point t the logits block holds that tile's product; the scratch columns hold the running (maximum, sum) of the
  row of tiles so far — reset at a first tile, updated from the previous point's columns otherwise; the two small output
  blocks hold the scratch columns at a last tile and are idle elsewhere. Nothing the body computes is transcribed here:
  each case's contents are the pieces its run found, read back.
-/
import proofs.«107961_j68968584839721_2_alg».proof.Proof.KI.R0RunC

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves, and that its pieces cover -/

section Cases
variable (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
  (x0 : Vec F S1024x2048 .f32) (x1 : Vec F S640x2048 .f32)

/-- A placeholder for an idle small output: nothing consults it (the window is neither written back nor read at
    the next point). -/
def idle0_3 : Vec F S1024x1 .f32 := VO0_3.read (Elt F) (VO0_3.writes (Elt F) VO0_3.junk [])
def idle0_4 : Vec F S1024x1 .f32 := VO0_4.read (Elt F) (VO0_4.writes (Elt F) VO0_4.junk [])

theorem cover0_A_2 (hc0 : cond0_0 i) (hc1 : ¬cond0_1 i) (y : S1024x640.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S1024x640.size (by sl_kernel_rfl) y
theorem scover0_A_0 (hc0 : cond0_0 i) (hc1 : ¬cond0_1 i) (y : S1024x1.Idx) :
    ∃ pc ∈ (kernelRun0_A c i arg2 harg2 arg3 harg3 arg4 harg4 arg5 harg5 arg6 harg6 arg7 harg7 arg8 harg8 hc0 hc1 x0 x1).2.1, y ∈ pc.1.set :=
  View.cover_of_tiledL (kernelRun0_A c i arg2 harg2 arg3 harg3 arg4 harg4 arg5 harg5 arg6 harg6 arg7 harg7 arg8 harg8 hc0 hc1 x0 x1).2.1 S1024x1.size (by sl_kernel_rfl) y
theorem scover0_A_1 (hc0 : cond0_0 i) (hc1 : ¬cond0_1 i) (y : S1024x1.Idx) :
    ∃ pc ∈ (kernelRun0_A c i arg2 harg2 arg3 harg3 arg4 harg4 arg5 harg5 arg6 harg6 arg7 harg7 arg8 harg8 hc0 hc1 x0 x1).2.2.1, y ∈ pc.1.set :=
  View.cover_of_tiledL (kernelRun0_A c i arg2 harg2 arg3 harg3 arg4 harg4 arg5 harg5 arg6 harg6 arg7 harg7 arg8 harg8 hc0 hc1 x0 x1).2.2.1 S1024x1.size (by sl_kernel_rfl) y

/-- What a first tile leaves: (logits block, idle, idle, running maximum, running sum). -/
def caseA (hc0 : cond0_0 i) (hc1 : ¬cond0_1 i) : Vec F S1024x640 .bf16 × Vec F S1024x1 .f32 × Vec F S1024x1 .f32 × Vec F S1024x1 .f32 × Vec F S1024x1 .f32 :=
  (VO0_2.read (Elt F) (VO0_2.writes (Elt F) VO0_2.junk (kernelRun0_A c i arg2 harg2 arg3 harg3 arg4 harg4 arg5 harg5 arg6 harg6 arg7 harg7 arg8 harg8 hc0 hc1 x0 x1).1),
   idle0_3, idle0_4,
   VS0_0.read (Elt F) (VS0_0.writes (Elt F) VS0_0.junk (kernelRun0_A c i arg2 harg2 arg3 harg3 arg4 harg4 arg5 harg5 arg6 harg6 arg7 harg7 arg8 harg8 hc0 hc1 x0 x1).2.1),
   VS0_1.read (Elt F) (VS0_1.writes (Elt F) VS0_1.junk (kernelRun0_A c i arg2 harg2 arg3 harg3 arg4 harg4 arg5 harg5 arg6 harg6 arg7 harg7 arg8 harg8 hc0 hc1 x0 x1).2.2.1))

variable (xs0 xs1 : Vec F S1024x1 .f32)

theorem cover0_B_2 (hc0 : ¬cond0_0 i) (hc1 : ¬cond0_1 i) (y : S1024x640.Idx) :
    ∃ pc ∈ (kernelRun0_B c i arg2 harg2 arg3 harg3 arg4 harg4 arg5 harg5 arg6 harg6 arg7 harg7 arg8 harg8 hc0 hc1 x0 x1 xs0 xs1).1, y ∈ pc.1.set :=
  View.cover_of_tiledL (kernelRun0_B c i arg2 harg2 arg3 harg3 arg4 harg4 arg5 harg5 arg6 harg6 arg7 harg7 arg8 harg8 hc0 hc1 x0 x1 xs0 xs1).1 S1024x640.size (by sl_kernel_rfl) y
theorem scover0_B_0 (hc0 : ¬cond0_0 i) (hc1 : ¬cond0_1 i) (y : S1024x1.Idx) :
    ∃ pc ∈ (kernelRun0_B c i arg2 harg2 arg3 harg3 arg4 harg4 arg5 harg5 arg6 harg6 arg7 harg7 arg8 harg8 hc0 hc1 x0 x1 xs0 xs1).2.1, y ∈ pc.1.set :=
  View.cover_of_tiledL (kernelRun0_B c i arg2 harg2 arg3 harg3 arg4 harg4 arg5 harg5 arg6 harg6 arg7 harg7 arg8 harg8 hc0 hc1 x0 x1 xs0 xs1).2.1 S1024x1.size (by sl_kernel_rfl) y
theorem scover0_B_1 (hc0 : ¬cond0_0 i) (hc1 : ¬cond0_1 i) (y : S1024x1.Idx) :
    ∃ pc ∈ (kernelRun0_B c i arg2 harg2 arg3 harg3 arg4 harg4 arg5 harg5 arg6 harg6 arg7 harg7 arg8 harg8 hc0 hc1 x0 x1 xs0 xs1).2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.1 S1024x1.size (by sl_kernel_rfl) y

/-- What a middle tile leaves, over the columns the point before left. -/
def caseB (hc0 : ¬cond0_0 i) (hc1 : ¬cond0_1 i) : Vec F S1024x640 .bf16 × Vec F S1024x1 .f32 × Vec F S1024x1 .f32 × Vec F S1024x1 .f32 × Vec F S1024x1 .f32 :=
  (VO0_2.read (Elt F) (VO0_2.writes (Elt F) VO0_2.junk (kernelRun0_B c i arg2 harg2 arg3 harg3 arg4 harg4 arg5 harg5 arg6 harg6 arg7 harg7 arg8 harg8 hc0 hc1 x0 x1 xs0 xs1).1),
   idle0_3, idle0_4,
   VS0_0.read (Elt F) (VS0_0.writes (Elt F) VS0_0.junk (kernelRun0_B c i arg2 harg2 arg3 harg3 arg4 harg4 arg5 harg5 arg6 harg6 arg7 harg7 arg8 harg8 hc0 hc1 x0 x1 xs0 xs1).2.1),
   VS0_1.read (Elt F) (VS0_1.writes (Elt F) VS0_1.junk (kernelRun0_B c i arg2 harg2 arg3 harg3 arg4 harg4 arg5 harg5 arg6 harg6 arg7 harg7 arg8 harg8 hc0 hc1 x0 x1 xs0 xs1).2.2.1))

theorem cover0_C_2 (hc0 : ¬cond0_0 i) (hc1 : cond0_1 i) (y : S1024x640.Idx) :
    ∃ pc ∈ (kernelRun0_C c i arg2 harg2 arg3 harg3 arg4 harg4 arg5 harg5 arg6 harg6 arg7 harg7 arg8 harg8 hc0 hc1 x0 x1 xs0 xs1).1, y ∈ pc.1.set :=
  View.cover_of_tiledL (kernelRun0_C c i arg2 harg2 arg3 harg3 arg4 harg4 arg5 harg5 arg6 harg6 arg7 harg7 arg8 harg8 hc0 hc1 x0 x1 xs0 xs1).1 S1024x640.size (by sl_kernel_rfl) y
theorem cover0_C_3 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.1, y ∈ pc.1.set :=
  View.cover_of_tiledL (kernelRun0_C c i arg2 harg2 arg3 harg3 arg4 harg4 arg5 harg5 arg6 harg6 arg7 harg7 arg8 harg8 hc0 hc1 x0 x1 xs0 xs1).2.1 S1024x1.size (by sl_kernel_rfl) y
theorem cover0_C_4 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.1 S1024x1.size (by sl_kernel_rfl) y
theorem scover0_C_0 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.1 S1024x1.size (by sl_kernel_rfl) y
theorem scover0_C_1 (hc0 : ¬cond0_0 i) (hc1 : cond0_1 i) (y : S1024x1.Idx) :
    ∃ pc ∈ (kernelRun0_C c i arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.2.1 S1024x1.size (by sl_kernel_rfl) y

/-- What a last tile leaves: also the two small output blocks. -/
def caseC (hc0 : ¬cond0_0 i) (hc1 : cond0_1 i) : Vec F S1024x640 .bf16 × Vec F S1024x1 .f32 × Vec F S1024x1 .f32 × Vec F S1024x1 .f32 × Vec F S1024x1 .f32 :=
  (VO0_2.read (Elt F) (VO0_2.writes (Elt F) VO0_2.junk (kernelRun0_C c i arg2 harg2 arg3 harg3 arg4 harg4 arg5 harg5 arg6 harg6 arg7 harg7 arg8 harg8 hc0 hc1 x0 x1 xs0 xs1).1),
   VO0_3.read (Elt F) (VO0_3.writes (Elt F) VO0_3.junk (kernelRun0_C c i arg2 harg2 arg3 harg3 arg4 harg4 arg5 harg5 arg6 harg6 arg7 harg7 arg8 harg8 hc0 hc1 x0 x1 xs0 xs1).2.1),
   VO0_4.read (Elt F) (VO0_4.writes (Elt F) VO0_4.junk (kernelRun0_C c i arg2 harg2 arg3 harg3 arg4 harg4 arg5 harg5 arg6 harg6 arg7 harg7 arg8 harg8 hc0 hc1 x0 x1 xs0 xs1).2.2.1),
   VS0_0.read (Elt F) (VS0_0.writes (Elt F) VS0_0.junk (kernelRun0_C c i arg2 harg2 arg3 harg3 arg4 harg4 arg5 harg5 arg6 harg6 arg7 harg7 arg8 harg8 hc0 hc1 x0 x1 xs0 xs1).2.2.2.1),
   VS0_1.read (Elt F) (VS0_1.writes (Elt F) VS0_1.junk (kernelRun0_C c i arg2 harg2 arg3 harg3 arg4 harg4 arg5 harg5 arg6 harg6 arg7 harg7 arg8 harg8 hc0 hc1 x0 x1 xs0 xs1).2.2.2.2.1))

end Cases

/-! ## What the outputs and the scratch columns hold after each point -/

/-- Each case at a grid point, on the memrefs and input blocks the pipeline calls the body with there. -/
abbrev atA (c : Dev nD) (t : Fin cfg0.N) (h0 : t.val % 50 = 0) (h1 : ¬t.val % 50 = 49) : Vec F S1024x640 .bf16 × Vec F S1024x1 .f32 × Vec F S1024x1 .f32 × Vec F S1024x1 .f32 × Vec F S1024x1 .f32 :=
  caseA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) ((hcond0_0 t).mpr h0) (fun h => h1 ((hcond0_1 t).mp h))
abbrev atB (c : Dev nD) (t : Fin cfg0.N) (h0 : ¬t.val % 50 = 0) (h1 : ¬t.val % 50 = 49) (xs0 xs1 : Vec F S1024x1 .f32) : Vec F S1024x640 .bf16 × Vec F S1024x1 .f32 × Vec F S1024x1 .f32 × Vec F S1024x1 .f32 × Vec F S1024x1 .f32 :=
  caseB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) xs0 xs1 (fun h => h0 ((hcond0_0 t).mp h)) (fun h => h1 ((hcond0_1 t).mp h))
abbrev atC (c : Dev nD) (t : Fin cfg0.N) (h0 : ¬t.val % 50 = 0) (h1 : t.val % 50 = 49) (xs0 xs1 : Vec F S1024x1 .f32) : Vec F S1024x640 .bf16 × Vec F S1024x1 .f32 × Vec F S1024x1 .f32 × Vec F S1024x1 .f32 × Vec F S1024x1 .f32 :=
  caseC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk0 V c 0 t) (iblk0 V c 1 t) xs0 xs1 (fun h => h0 ((hcond0_0 t).mp h)) ((hcond0_1 t).mpr h1)

/-- THE ACCUMULATION: (logits block, small output 1, small output 2, running maximum, running sum) after the body at
    position n, by recursion on the position — the case the point is in, a middle or last tile over the columns the
    point before left. -/
def outsAt0 (c : Dev nD) : (n : ℕ) → n < cfg0.N → Vec F S1024x640 .bf16 × Vec F S1024x1 .f32 × Vec F S1024x1 .f32 × Vec F S1024x1 .f32 × Vec F S1024x1 .f32
  | 0, hn => atA V c ⟨0, hn⟩ (Nat.zero_mod _) (by show ¬ (0 % 50 = 49); decide)
  | n + 1, hn =>
    if h0 : (n + 1) % 50 = 0 then
      if h1 : (n + 1) % 50 = 49 then False.elim (by omega)
      else atA V c ⟨n + 1, hn⟩ h0 h1
    else
      if h1 : (n + 1) % 50 = 49 then
        atC V c ⟨n + 1, hn⟩ h0 h1 (outsAt0 c n (Nat.lt_of_succ_lt hn)).2.2.2.1 (outsAt0 c n (Nat.lt_of_succ_lt hn)).2.2.2.2
      else
        atB V c ⟨n + 1, hn⟩ h0 h1 (outsAt0 c n (Nat.lt_of_succ_lt hn)).2.2.2.1 (outsAt0 c n (Nat.lt_of_succ_lt hn)).2.2.2.2

theorem outsAt0_A (c : Dev nD) (t : Fin cfg0.N) (h0 : t.val % 50 = 0) (h1 : ¬t.val % 50 = 49) :
    outsAt0 V c t.val t.isLt = atA V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 50 = 0) (h1 : ¬t.val % 50 = 49) :
    outsAt0 V c t.val t.isLt = atB V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 50 = 0) (h1 : t.val % 50 = 49) :
    outsAt0 V c t.val t.isLt = atC V c t h0 h1 (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: what the launch hands over (every scratch at anything). Afterwards: the two scratch
    columns at what the point before left in them, the other call's staging buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.2.1) ∗ owns (c : Thread nD τ) scM0_1 fullShare ((outsAt0 V c n hn).2.2.2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ rest0 (F := F) c) ∗ (∃ r, prngReg c r)) := by
  cases n with
  | zero => exact absurd rfl hz
  | succ n => rfl

/-! ## The pipeline's proof data -/

/-- The arrays as the region finds them; after the body at point t each input's buffer at its block and the
    outputs' at the accumulation's components; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

end Cert.KernelIdeal.R0

end
-- ==== Proof.KI.R0Body.lean ====
/-
  Region 0: the body obligation. At each grid point the pipeline hands the body the invariant (the two scratch columns
  at what the point before left, or at anything before the first point), its two input blocks, and its three output
  buffers; the body returns the invariant at this point's columns and each window's buffer at what the proof data says.
  Which of the three runs applies is decided by the point's vocabulary tile (t mod 50 = 0, = 49, or neither).
-/
import proofs.«107961_j68968584839721_2_alg».proof.Proof.KI.R0Frame

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 100 := lt_of_lt_of_eq t.isLt (show cfg0.N = 100 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 50 = 0
  · have h1 : ¬t.val % 50 = 49 := by omega
    rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [outsAt0_A V c t h0 h1]
    unfold atA caseA; (try dsimp only)
    by_cases hz : t.val = 0
    · rw [PhiS0_castSucc V c t, PhiS0_zero V c _ _ hz, PhiA0_eq]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_A_0 c _ _ _ _ _ _ _ _ _ _ _ _ _ _ _ _ _ _ _)
          isplitl [HS1]
          · unfold owns; iexists _; isplitr; swap; (· iexact HS1); ipureintro; exact View.read_writes_of_cover _ _ _ _ _ (scover0_A_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_A_2 c _ _ _ _ _ _ _ _ _ _ _ _ _ _ _ _ _ _ _)
      isplitl [H3]; · iexists _; iexact H3
      iexists _; iexact H4
    · rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2.2.2 _ _ Set.univ _)
      isplitl [H0]; · iexact H0
      isplitl [H1]; · iexact H1
      isplitl [H2]; · iexists _; iexact H2
      isplitl [H3]; · iexact H3
      isplitl [H4]; · iexact H4
      isplitl [HS0]; · iexists _; iexact HS0
      isplitl [HS1]; · iexists _; iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_A_0 c _ _ _ _ _ _ _ _ _ _ _ _ _ _ _ _ _ _ _)
          isplitl [HS1]
          · unfold owns; iexists _; isplitr; swap; (· iexact HS1); ipureintro; exact View.read_writes_of_cover _ _ _ _ _ (scover0_A_1 c _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_A_2 c _ _ _ _ _ _ _ _ _ _ _ _ _ _ _ _ _ _ _)
      isplitl [H3]; · iexists _; iexact H3
      iexists _; iexact H4
  · have hz : t.val ≠ 0 := by intro h; rw [h] at h0; exact h0 (Nat.zero_mod _)
    by_cases h1 : t.val % 50 = 49
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold atC caseC; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) _ _).2.2.2.2.2 Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, ⟨%e2, H2⟩, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_C_0 c _ _ _ _ _ _ _ _ _ _ _ _ _ _ _ _ _ _ _ _ _)
          isplitl [HS1]
          · unfold owns; iexists _; isplitr; swap; (· iexact HS1); ipureintro; exact View.read_writes_of_cover _ _ _ _ _ (scover0_C_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_C_2 c _ _ _ _ _ _ _ _ _ _ _ _ _ _ _ _ _ _ _ _ _)
      isplitl [H3]
      · unfold owns; iexists _; isplitr; swap; (· iexact H3); ipureintro; exact View.read_writes_of_cover _ _ _ _ _ (cover0_C_3 c _ _ _ _ _ _ _ _ _ _ _ _ _ _ _ _ _ _ _ _ _)
      unfold owns; iexists _; isplitr; swap; (· iexact H4); ipureintro; exact View.read_writes_of_cover _ _ _ _ _ (cover0_C_4 c _ _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold atB caseB; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) _ _).2.2.2 _ _ Set.univ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, ⟨%e2, H2⟩, H3, H4, ⟨%es0, HS0⟩, ⟨%es1, HS1⟩⟩
      isplitl [HS0 HS1 Hrest Hg]
      · isplitl [HS0 HS1 Hrest]
        · isplitl [HS0]
          · unfold owns; iexists _; isplitr; swap; (· iexact HS0); ipureintro; exact View.read_writes_of_cover _ _ _ _ _ (scover0_B_0 c _ _ _ _ _ _ _ _ _ _ _ _ _ _ _ _ _ _ _ _ _)
          isplitl [HS1]
          · unfold owns; iexists _; isplitr; swap; (· iexact HS1); ipureintro; exact View.read_writes_of_cover _ _ _ _ _ (scover0_B_1 c _ _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr; swap; (· iexact H2); ipureintro; exact View.read_writes_of_cover _ _ _ _ _ (cover0_B_2 c _ _ _ _ _ _ _ _ _ _ _ _ _ _ _ _ _ _ _ _ _)
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch's form back: the columns' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 100 := N_0; omega)

end Region

end Cert.KernelIdeal.R0

end
-- ==== Proof.KI.R1.lean ====
import proofs.«107961_j68968584839721_2_alg».proof.Proof.Gen.KernelIdeal.Launch
import proofs.«107961_j68968584839721_2_alg».proof.Proof.Gen.KernelIdeal.Skeleton
import proofs.«107961_j68968584839721_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# Region 1 of @main: the second pallas_call, the normalising kernel

At a parameter `V` — the TensorCore's buffer contents when the region is entered — the pipeline's proof data:
each window's block at a grid point, what the body leaves in the output's staging buffer (the exponential of the
logits block minus the row maxima, divided by the row sums, both columns broadcast along the row), the body's
triple, and the body obligation at every grid point.
-/

-- membership in a rectangle of the block's extents: the structural look recurses once per coordinate of the long axes
set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s (`hA`) and whose body leaves the block in place (`hafter`): the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the
    block index has not moved: the row maxima's index map reads the first grid axis only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (the row sums,
    as the row maxima). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole logits (and output) block. -/
abbrev r1_0 : Rect S1024x1280 := Rect.unit (s := S1024x1280) ![0, 0] S1024x1280.size inb_S1024x1280_S1024x1280_0_0
/-- The whole column block of the row maxima and of the row sums. -/
abbrev r1_1 : Rect S1024x1 := Rect.unit (s := S1024x1) ![0, 0] S1024x1.size inb_S1024x1_S1024x1_0_0

/-! ## What the body leaves in the output window's buffer -/

/-- Window 3's staging buffer after the body, from the input windows' blocks: its one store, of the whole block,
    of the payload of the three loads. -/
def out1_3 (x0 : Vec F S1024x1280 .bf16) (x1 : Vec F S1024x1 .f32) (x2 : Vec F S1024x1 .f32) : Vec F S1024x1280 .f32 :=
  View.canon [⟨r1_0, k1_pay1 (View.ld x0 r1_0) (View.ld x1 r1_1) (View.ld x2 r1_1)⟩]

/-- The one store tiles the buffer (checked by evaluation), so it covers it. -/
theorem cover1_3 (p0 : Vec F S1024x1280 .f32) (y : S1024x1280.Idx) :
    ∃ pc ∈ ([⟨r1_0, p0⟩] : List (View.Piece (Elt F) S1024x1280 .f32)), y ∈ pc.1.set :=
  View.cover_of_tiled [⟨r1_0, p0⟩] S1024x1280.size (by rfl) y

/-! ## The body's triple -/

set_option maxHeartbeats 1000000 in
/-- The kernel body on whole staging memrefs, the inputs' at read contents `x0`, `x1`, `x2` and the output's at
    anything, runs to the continuation holding the inputs' as they were and the output's at `out1_3` of the inputs. -/
theorem sound_kernel1 (c : Dev nD) (E : Set ℕ) (i : grid1.Coords) (arg2 : Memref sig .tc .vmem S1024x1280 .bf16) (harg2 : arg2.IsWhole) (arg3 : Memref sig .tc .vmem S1024x1 .f32) (harg3 : arg3.IsWhole) (arg4 : Memref sig .tc .vmem S1024x1 .f32) (harg4 : arg4.IsWhole) (arg5 : Memref sig .tc .vmem S1024x1280 .f32) (harg5 : arg5.IsWhole)
    (x0 : Vec F S1024x1280 .bf16) (x1 : Vec F S1024x1 .f32) (x2 : Vec F S1024x1 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__kernel_b i arg2 harg2 arg3 harg3 arg4 harg4 arg5 harg5) K := by
  simp only [cc1__kernel_b_eq_skeleton]; unfold cc1__kernel_b_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.R1

end
-- ==== Proof.KI.Run.lean ====
/-
  The whole run of @main: two kernel regions, no host operation between them. The buffer contents at the three
  boundaries are a fold from the launch memory: at launch; after region 0, its five arrays at what the pipeline's
  write-backs leave (the two inputs as entered, the logits and the two columns of row statistics as folded from the
  proof data), everything else as entered; after region 1 likewise for its four arrays. Each region is a segment over
  the thread state "every unscoped buffer at the boundary's contents, the generator register at some state, nothing
  owed"; the run's post names EVERY unscoped buffer at the last boundary's contents, from which the frame (each
  argument walks back through the fold to the launch memory) and the result's value are read.
-/
import proofs.«107961_j68968584839721_2_alg».proof.Proof.KI.R0Body
import proofs.«107961_j68968584839721_2_alg».proof.Proof.KI.R1

set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit (region 1's entry). -/
def W1 (c : Dev nD) : Valuation τ sig (Elt F) :=
  Pipeline.withArrays spec0 c (W0 m ρ c) fun w => (R0.dat0 (V0 m ρ) c).arrAt w cfg0.N
theorem W1_arr (c : Dev nD) (w : Fin cfg0.W) :
    W1 m ρ c (Proc.devRef .tc (Pipeline.arrRef spec0 w)) = (R0.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- At region 1's exit. -/
def W2 (c : Dev nD) : Valuation τ sig (Elt F) :=
  Pipeline.withArrays spec1 c (W1 m ρ c) fun w => (R1.dat1 (V1 m ρ) c).arrAt w cfg1.N
theorem W2_arr (c : Dev nD) (w : Fin cfg1.W) :
    W2 m ρ c (Proc.devRef .tc (Pipeline.arrRef spec1 w)) = (R1.dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((R0.dat0 (V0 m ρ) c).arrAt_in 0 rfl _).trans (R0.A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((R0.dat0 (V0 m ρ) c).arrAt_in 1 rfl _).trans (R0.A_eq0 (V0 m ρ) c 1))
    _ = m ((c : Thread nD τ).loc main_arg2) := rfl
/-- The result's array at the end is what region 1's write-backs leave. -/
theorem W2_main_v1 (c : Dev nD) : W2 m ρ c (Proc.devRef .tc main_v1) = (R1.dat1 (V1 m ρ) c).arrAt 3 cfg1.N :=
  W2_arr m ρ c 3
/-- Region 1 finds the logits and the two columns of row statistics at what region 0's write-backs left. -/
theorem V1_main_v0_0 (c : Dev nD) : V1 m ρ c main_v0_0 = (R0.dat0 (V0 m ρ) c).arrAt 2 cfg0.N := W1_arr m ρ c 2
theorem V1_main_v0_1 (c : Dev nD) : V1 m ρ c main_v0_1 = (R0.dat0 (V0 m ρ) c).arrAt 3 cfg0.N := W1_arr m ρ c 3
theorem V1_main_v0_2 (c : Dev nD) : V1 m ρ c main_v0_2 = (R0.dat0 (V0 m ρ) c).arrAt 4 cfg0.N := W1_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => R0.dat0 (V0 m ρ) c
  | ⟨1, _⟩ => fun c => R1.dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered at the launch contents, left at W1. Its arrays are split out of the
    unscoped buffers and put back at the exit contents; the generator register goes into the invariant and comes
    back; the invariant starts as the launch's form and ends giving it back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := R0.hin0 (V0 m ρ) c
    unfold Pipeline.ΦA at h
    rw [show (pdats m ρ 0 c).Φ 0 = (R0.dat0 (V0 m ρ) c).Φ 0 from rfl]
    iintro ⟨Hp, -, Hr⟩
    iapply h
    isplitl [Hr]; · iexact Hr
    iexact Hp
  hout c := by
    rw [Pipeline.ownSems0_none, show (pdats m ρ 0 c).Φ (Fin.last _) = (R0.dat0 (V0 m ρ) c).Φ (Fin.last cfg0.N) from rfl]
    have h := R0.hout0 (V0 m ρ) c
    unfold Pipeline.ΦA at h
    iintro HΦ
    ihave H' := h $$ HΦ
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered at W1, left at W2. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result named: the result's array ends at what region 1's write-backs leave, the arguments as
    launched. -/
theorem run_result : θ_run defs (onTc (τ := τ) (main (F := F))) ⟨m, fun _ => 0, ρ⟩ (fun r => ∀ c : Dev nD,
      r.2.mem ((c.tc : Thread nD τ).loc main_v1) = (R1.dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.KernelIdeal.Run

end
-- ==== Proof.LibRows.lean ====
/-
  Rows of a two-axis array read at an index, at the extended reals: the sum of a row as a lane reduction computes
  it, a vector of row values made a column, and a column spread over the columns of a row.
-/
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRows

open Idealize.ShloMosaic Idealize.ShloMosaic.ValueIdx

variable {α : Type}

/-- A vector of `a` values cast to a column `[a, 1]` reads, at `(i, u)`, the value at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array into `[a]`, at the extended reals, is at `p` the sum of row `p`. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  apply Fin.ext
  match ax with
  | ⟨0, _⟩ => rfl
  | ⟨1, _⟩ => rfl

end Cert.LibRows

end
-- ==== Proof.KI.R1Value.lean ====
import proofs.«107961_j68968584839721_2_alg».proof.Proof.KI.R1
import proofs.«107961_j68968584839721_2_alg».proof.Proof.LibRows
import Idealize.ShloMosaic.Lib.Pipeline.Value
import Idealize.ShloMosaic.Lib.ValueIdx
import Idealize.ShloMosaic.Lib.ValueLayout
import Idealize.ShloMosaic.PureOps.Ideal.Laws

/-!
# Region 1 at the extended reals: the output array as one function of the three entry arrays

The normalising kernel's body computes, on each block, `exp (x - m) / l` with the column of row maxima `m` and
the column of row sums `l` spread along the row. Its blocks are restrictions of one function of the whole arrays —
element `(r, q)` of the output is `exp (x (r, q) - m (r, 0)) / l (r, 0)` — and the output's blocks tile its array,
so after the region the output array is that function.
-/

set_option maxRecDepth 16384

noncomputable section

namespace Cert.KernelIdeal.R1

open Cert.KernelIdeal Cert.KernelIdeal.Gen Idealize.ShloMosaic Idealize.ShloMosaic.TcCoe Idealize.SL.Sem
open Idealize.ShloMosaic.Pipeline (Dat)
open Idealize.ShloMosaic.ValueIdx

/-! ## The function -/

/-- Element `i = (r, q)` of the output: the exponential of the logit less its row's maximum, over its row's sum. -/
def G1 (a0 : S2048x32000.Idx → EReal) (a1 a2 : S2048x1.Idx → EReal) : S2048x32000.Idx → EReal :=
  fun i => Ideal.div (Ideal.exp (a0 i - a1 (ix2 (i 0) (0 : Fin 1)))) (a2 (ix2 (i 0) (0 : Fin 1)))

/-- `G1` at an index. -/
theorem G1_apply (a0 : S2048x32000.Idx → EReal) (a1 a2 : S2048x1.Idx → EReal) (i : S2048x32000.Idx) :
    G1 a0 a1 a2 i = Ideal.div (Ideal.exp (a0 i - a1 (ix2 (i 0) (0 : Fin 1)))) (a2 (ix2 (i 0) (0 : Fin 1))) := rfl

theorem hz : (![0, 0] : Fin 2 → Nat) = fun _ => 0 := funext fun a => by fin_cases a <;> rfl

/-! ## The body's payload at an index -/

/-- The payload at `(p, q)`: the two columns are read at row `p`. -/
theorem pay1_apply (x0 : Vec Ideal S1024x1280 .bf16) (x1 x2 : Vec Ideal S1024x1 .f32) (p : Fin 1024) (q : Fin 1280) :
    k1_pay1 x0 x1 x2 (ix2 p q) = Ideal.div (Ideal.exp (x0 (ix2 p q) - x1 (ix2 p (0 : Fin 1)))) (x2 (ix2 p (0 : Fin 1))) := by
  unfold k1_pay1
  simp only [shapeCast_self]
  show Ideal.div (Ideal.exp (x0 (ix2 p q) - broadcastTo S1024x1280 x1 broadcasts_S1024x1_S1024x1280 (ix2 p q)))
      (broadcastTo S1024x1280 x2 broadcasts_S1024x1_S1024x1280 (ix2 p q)) = _
  rw [Cert.LibRows.broadcastTo_a1_ab_apply, Cert.LibRows.broadcastTo_a1_ab_apply]

/-! ## The input blocks as parts of the entry arrays -/

section Blocks
variable (V : (c : Dev nD) → (b : Ref sig .tc) → Buf (Elt Ideal) ((c : Thread nD τ).loc b))

/-- The logits block at point `t`, element `x`: the logits array at block index × block size + `x`, axis by axis. -/
theorem iblk1_0_apply (c : Dev nD) (t : Fin cfg1.N) (x : S1024x1280.Idx) (k : S2048x32000.Idx)
    (hk0 : (k 0).val = win1_0.index t (0 : Fin 2) * 1024 + (x 0).val) (hk1 : (k 1).val = win1_0.index t (1 : Fin 2) * 1280 + (x 1).val) :
    (iblk1 V c 0 t : Vec Ideal S1024x1280 .bf16) x = (V c main_v0_0 : S2048x32000.Idx → EReal) k := by
  unfold iblk1
  rw [View.read_apply]
  show (V c main_v0_0 : S2048x32000.Idx → EReal) _ = V c main_v0_0 k
  refine congrArg _ (funext fun a => Fin.ext ?_)
  match a with
  | ⟨0, _⟩ => show win1_0.index t (0 : Fin 2) * 1024 + 1 * (x 0).val = (k 0).val; omega
  | ⟨1, _⟩ => show win1_0.index t (1 : Fin 2) * 1280 + 1 * (x 1).val = (k 1).val; omega

/-- The block of row maxima at point `t`, element `x`. -/
theorem iblk1_1_apply (c : Dev nD) (t : Fin cfg1.N) (x : S1024x1.Idx) (k : S2048x1.Idx)
    (hk0 : (k 0).val = win1_1.index t (0 : Fin 2) * 1024 + (x 0).val) (hk1 : (k 1).val = win1_1.index t (1 : Fin 2) * 1 + (x 1).val) :
    (iblk1 V c 1 t : Vec Ideal S1024x1 .f32) x = (V c main_v0_1 : S2048x1.Idx → EReal) k := by
  unfold iblk1
  rw [View.read_apply]
  show (V c main_v0_1 : S2048x1.Idx → EReal) _ = V c main_v0_1 k
  refine congrArg _ (funext fun a => Fin.ext ?_)
  match a with
  | ⟨0, _⟩ => show win1_1.index t (0 : Fin 2) * 1024 + 1 * (x 0).val = (k 0).val; omega
  | ⟨1, _⟩ => show win1_1.index t (1 : Fin 2) * 1 + 1 * (x 1).val = (k 1).val; omega

/-- The block of row sums at point `t`, element `x`. -/
theorem iblk1_2_apply (c : Dev nD) (t : Fin cfg1.N) (x : S1024x1.Idx) (k : S2048x1.Idx)
    (hk0 : (k 0).val = win1_2.index t (0 : Fin 2) * 1024 + (x 0).val) (hk1 : (k 1).val = win1_2.index t (1 : Fin 2) * 1 + (x 1).val) :
    (iblk1 V c 2 t : Vec Ideal S1024x1 .f32) x = (V c main_v0_2 : S2048x1.Idx → EReal) k := by
  unfold iblk1
  rw [View.read_apply]
  show (V c main_v0_2 : S2048x1.Idx → EReal) _ = V c main_v0_2 k
  refine congrArg _ (funext fun a => Fin.ext ?_)
  match a with
  | ⟨0, _⟩ => show win1_2.index t (0 : Fin 2) * 1024 + 1 * (x 0).val = (k 0).val; omega
  | ⟨1, _⟩ => show win1_2.index t (1 : Fin 2) * 1 + 1 * (x 1).val = (k 1).val; omega

/-! ## The index maps over the grid -/

/-- The printed index maps, decided over the grid's fifty points: the logits block moves with the output's; the two
    columns' blocks follow the output's row block and stay at column block 0; the output's block indices are in range. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = 0
    ∧ win1_2.index t (0 : Fin 2) = win1_3.index t (0 : Fin 2)
    ∧ win1_2.index t (1 : Fin 2) = 0
    ∧ win1_3.index t (0 : Fin 2) ≤ 1 ∧ win1_3.index t (1 : Fin 2) ≤ 24 :=
  (by decide +kernel : ∀ t : Fin grid1.N, _)

/-- Every block of the output array is some point's. -/
theorem idx_onto1 : ∀ (q0 : Fin 2) (q1 : Fin 25), ∃ t : Fin cfg1.N, win1_3.index t = ![q0.val, q1.val] :=
  (by decide +kernel : ∀ (q0 : Fin 2) (q1 : Fin 25), ∃ t : Fin grid1.N, win1_3.index t = ![q0.val, q1.val])

end Blocks

/-! ## From blocks to the array -/

section Final
variable (V : (c : Dev nD) → (b : Ref sig .tc) → Buf (Elt Ideal) ((c : Thread nD τ).loc b))

/-- The payload at any index of the block. -/
theorem pay1_apply' (x0 : Vec Ideal S1024x1280 .bf16) (x1 x2 : Vec Ideal S1024x1 .f32) (j : S1024x1280.Idx) :
    k1_pay1 x0 x1 x2 j = Ideal.div (Ideal.exp (x0 j - x1 (ix2 (j 0) (0 : Fin 1)))) (x2 (ix2 (j 0) (0 : Fin 1))) := by
  obtain ⟨p, q, rfl⟩ : ∃ (p : Fin 1024) (q : Fin 1280), j = ix2 p q := ⟨j 0, j 1, eq_ix2 j⟩
  exact pay1_apply x0 x1 x2 p q

/-- Equal arguments, equal results. -/
theorem norm_congr {A B C A' B' C' : EReal} (h0 : A = A') (h1 : B = B') (h2 : C = C') :
    Ideal.div (Ideal.exp (A - B)) C = Ideal.div (Ideal.exp (A' - B')) C' := by rw [h0, h1, h2]

/-- What grid point `t` writes back is block `t` of `G1` of the entry arrays: each input block is read where the
    output's rectangle says — block index × block size + the coordinate inside the block. -/
theorem flushed1_eq (c : Dev nD) (t : Fin cfg1.N) :
    (dat1 (F := Ideal) V c).flushed 3 t
      = ((cfg1.win 3).blk t).view.read (Elt Ideal) (G1 (V c main_v0_0) (V c main_v0_1) (V c main_v0_2)) := by
  show (cfg1.win 3).cut (grid1.coords t) ((dat1 V c).after 3 t) = _
  rw [after1_3]
  unfold out1_3
  rw [View.canon_unit_zero hz]
  simp only [View.ld_unit_zero (S := S1024x1280) hz, View.ld_unit_zero (S := S1024x1) hz]
  obtain ⟨e0, e1, e2, e3, e4, e5, e6, e7⟩ := idx_facts1 t
  funext j
  refine (pay1_apply' _ _ _ j).trans ?_
  have h0 := iblk1_0_apply V c t j (((cfg1.win 3).blk t).view.emb j)
    (by show win1_3.index t (0 : Fin 2) * 1024 + 1 * (j 0).val = win1_0.index t (0 : Fin 2) * 1024 + (j 0).val; omega)
    (by show win1_3.index t (1 : Fin 2) * 1280 + 1 * (j 1).val = win1_0.index t (1 : Fin 2) * 1280 + (j 1).val; omega)
  have h1 := iblk1_1_apply V c t (ix2 (j 0) (0 : Fin 1)) (ix2 ((((cfg1.win 3).blk t).view.emb j) 0) (0 : Fin 1))
    (by show win1_3.index t (0 : Fin 2) * 1024 + 1 * (j 0).val = win1_1.index t (0 : Fin 2) * 1024 + (j 0).val; omega)
    (by show 0 = win1_1.index t (1 : Fin 2) * 1 + 0; omega)
  have h2 := iblk1_2_apply V c t (ix2 (j 0) (0 : Fin 1)) (ix2 ((((cfg1.win 3).blk t).view.emb j) 0) (0 : Fin 1))
    (by show win1_3.index t (0 : Fin 2) * 1024 + 1 * (j 0).val = win1_2.index t (0 : Fin 2) * 1024 + (j 0).val; omega)
    (by show 0 = win1_2.index t (1 : Fin 2) * 1 + 0; omega)
  exact norm_congr h0 h1 h2

/-- An index of the output array is in point `t`'s block iff each coordinate is in the block's range on its axis. -/
theorem mem_blk1 (t : Fin cfg1.N) (i : S2048x32000.Idx) :
    i ∈ ((cfg1.win 3).blk t).view.set ↔ ∀ a : Fin 2, win1_3.index t a * S1024x1280.size a ≤ (i a).val ∧ (i a).val < win1_3.index t a * S1024x1280.size a + S1024x1280.size a := by
  show i ∈ ((View.whole main_v1).slice (win1_3.rect t)).set ↔ _
  rw [View.set_slice_whole, Rect.mem_set_unit]
  exact Iff.rfl

/-- The output's blocks tile its array: row `r`, column `q` is in the block of the point whose output block index
    is `(r / 1024, q / 1280)`. -/
theorem cover1 (i : S2048x32000.Idx) :
    ∃ t : Fin cfg1.N, (cfg1.win 3).flush t = true ∧ i ∈ ((cfg1.win 3).blk t).view.set := by
  have hi0 : (i 0).val < 2048 := (i 0).isLt
  have hi1 : (i 1).val < 32000 := (i 1).isLt
  obtain ⟨t, ht⟩ := idx_onto1 ⟨(i 0).val / 1024, by omega⟩ ⟨(i 1).val / 1280, by omega⟩
  have q0 : win1_3.index t (0 : Fin 2) = (i 0).val / 1024 := congrFun ht 0
  have q1 : win1_3.index t (1 : Fin 2) = (i 1).val / 1280 := congrFun ht 1
  refine ⟨t, flush1_3 t, ?_⟩
  rw [mem_blk1]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 1280 ≤ (i 1).val ∧ (i 1).val < win1_3.index t (1 : Fin 2) * 1280 + 1280; omega

/-- THE OUTPUT ARRAY after the region: `G1` of the three entry arrays — element `(r, q)` the exponential of the logit
    less its row's maximum, over its row's sum. -/
theorem final1 (c : Dev nD) :
    (dat1 (F := Ideal) V c).arrAt 3 cfg1.N = G1 (V c main_v0_0) (V c main_v0_1) (V c main_v0_2) :=
  (dat1 V c).arrAt_eq_of_cover 3 (G1 (V c main_v0_0) (V c main_v0_1) (V c main_v0_2)) (fun t _ => flushed1_eq V c t) (cover1)

end Final

end Cert.KernelIdeal.R1

end
-- ==== Proof.KI.R0Pieces.lean ====
/-
  Region 0: what each case's found pieces ARE. Every store of the body goes through the whole-block rectangle at
  zero offsets, so a buffer's last store's payload is what it holds. The logits block holds the tile product (as the
  bf16 tile that is stored); the first scratch column holds the new running maximum and the second the new running
  sum, each as the skeleton's payload of the two input blocks and of the columns the body read — the reset values at
  a first tile, the incoming columns otherwise; at a last tile the two small outputs hold the two new columns.
-/
import proofs.«107961_j68968584839721_2_alg».proof.Proof.KI.R0Frame
import Idealize.ShloMosaic.Lib.Pipeline.Value

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

section Cases
variable (c : Dev nD) (i : grid0.Coords) (arg2 : Memref sig .tc .vmem S1024x2048 .f32) (harg2 : arg2.IsWhole) (arg3 : Memref sig .tc .vmem S640x2048 .f32) (harg3 : arg3.IsWhole) (arg4 : Memref sig .tc .vmem S1024x640 .bf16) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole)
  (x0 : Vec F S1024x2048 .f32) (x1 : Vec F S640x2048 .f32)

theorem pieceA_2 (hc0 : cond0_0 i) (hc1 : ¬cond0_1 i) :
    (caseA c i arg2 harg2 arg3 harg3 arg4 harg4 arg5 harg5 arg6 harg6 arg7 harg7 arg8 harg8 x0 x1 hc0 hc1).1 = k0_pay4 x0 x1 := by
  unfold caseA; dsimp only
  rw [View.read_writes_eq_canon _ _ _ (cover0_A_2 c i arg2 harg2 arg3 harg3 arg4 harg4 arg5 harg5 arg6 harg6 arg7 harg7 arg8 harg8 x0 x1 hc0 hc1)]
  unfold kernelRun0_A
  dsimp only
  sl_unfold_words
  rw [View.canon_unit_zero (S := S1024x640) hz2]
  simp only [View.readAt_eq_ld, harg2.read_unread, harg3.read_unread, View.ld_unit_zero (S := S1024x2048) hz2, View.ld_unit_zero (S := S640x2048) hz2]

theorem pieceA_s0 (hc0 : cond0_0 i) (hc1 : ¬cond0_1 i) :
    (caseA c i arg2 harg2 arg3 harg3 arg4 harg4 arg5 harg5 arg6 harg6 arg7 harg7 arg8 harg8 x0 x1 hc0 hc1).2.2.2.1 = k0_pay7 x0 x1 k0_pay1 := by
  unfold caseA; dsimp only
  rw [View.read_writes_eq_canon _ _ _ (scover0_A_0 c i arg2 harg2 arg3 harg3 arg4 harg4 arg5 harg5 arg6 harg6 arg7 harg7 arg8 harg8 x0 x1 hc0 hc1)]
  unfold kernelRun0_A
  dsimp only
  sl_unfold_words
  rw [View.canon_cons_unit_zero (S := S1024x1) hz2]
  simp only [View.readAt_eq_ld, harg2.read_unread, harg3.read_unread, View.ld_unit_zero (S := S1024x2048) hz2, View.ld_unit_zero (S := S640x2048) hz2, View.readCov_unit_zero (S := S1024x1) _ hz2]

theorem pieceA_s1 (hc0 : cond0_0 i) (hc1 : ¬cond0_1 i) :
    (caseA c i arg2 harg2 arg3 harg3 arg4 harg4 arg5 harg5 arg6 harg6 arg7 harg7 arg8 harg8 x0 x1 hc0 hc1).2.2.2.2 = k0_pay8 x0 x1 k0_pay1 k0_pay2 := by
  unfold caseA; dsimp only
  rw [View.read_writes_eq_canon _ _ _ (scover0_A_1 c i arg2 harg2 arg3 harg3 arg4 harg4 arg5 harg5 arg6 harg6 arg7 harg7 arg8 harg8 x0 x1 hc0 hc1)]
  unfold kernelRun0_A
  dsimp only
  sl_unfold_words
  rw [View.canon_cons_unit_zero (S := S1024x1) hz2]
  simp only [View.readAt_eq_ld, harg2.read_unread, harg3.read_unread, View.ld_unit_zero (S := S1024x2048) hz2, View.ld_unit_zero (S := S640x2048) hz2, View.readCov_unit_zero (S := S1024x1) _ hz2]

variable (xs0 xs1 : Vec F S1024x1 .f32)

theorem pieceB_2 (hc0 : ¬cond0_0 i) (hc1 : ¬cond0_1 i) :
    (caseB c i arg2 harg2 arg3 harg3 arg4 harg4 arg5 harg5 arg6 harg6 arg7 harg7 arg8 harg8 x0 x1 xs0 xs1 hc0 hc1).1 = k0_pay4 x0 x1 := by
  unfold caseB; dsimp only
  rw [View.read_writes_eq_canon _ _ _ (cover0_B_2 c i arg2 harg2 arg3 harg3 arg4 harg4 arg5 harg5 arg6 harg6 arg7 harg7 arg8 harg8 x0 x1 xs0 xs1 hc0 hc1)]
  unfold kernelRun0_B
  dsimp only
  sl_unfold_words
  rw [View.canon_unit_zero (S := S1024x640) hz2]
  simp only [View.readAt_eq_ld, harg2.read_unread, harg3.read_unread, View.ld_unit_zero (S := S1024x2048) hz2, View.ld_unit_zero (S := S640x2048) hz2]

theorem pieceB_s0 (hc0 : ¬cond0_0 i) (hc1 : ¬cond0_1 i) :
    (caseB c i arg2 harg2 arg3 harg3 arg4 harg4 arg5 harg5 arg6 harg6 arg7 harg7 arg8 harg8 x0 x1 xs0 xs1 hc0 hc1).2.2.2.1 = k0_pay7 x0 x1 xs0 := by
  unfold caseB; dsimp only
  rw [View.read_writes_eq_canon _ _ _ (scover0_B_0 c i arg2 harg2 arg3 harg3 arg4 harg4 arg5 harg5 arg6 harg6 arg7 harg7 arg8 harg8 x0 x1 xs0 xs1 hc0 hc1)]
  unfold kernelRun0_B
  dsimp only
  sl_unfold_words
  rw [View.canon_unit_zero (S := S1024x1) hz2]
  simp only [View.readAt_eq_ld, harg2.read_unread, harg3.read_unread, harg7.read_unread, harg8.read_unread, View.ld_unit_zero (S := S1024x2048) hz2, View.ld_unit_zero (S := S640x2048) hz2, View.ld_unit_zero (S := S1024x1) hz2]

theorem pieceB_s1 (hc0 : ¬cond0_0 i) (hc1 : ¬cond0_1 i) :
    (caseB c i arg2 harg2 arg3 harg3 arg4 harg4 arg5 harg5 arg6 harg6 arg7 harg7 arg8 harg8 x0 x1 xs0 xs1 hc0 hc1).2.2.2.2 = k0_pay8 x0 x1 xs0 xs1 := by
  unfold caseB; dsimp only
  rw [View.read_writes_eq_canon _ _ _ (scover0_B_1 c i arg2 harg2 arg3 harg3 arg4 harg4 arg5 harg5 arg6 harg6 arg7 harg7 arg8 harg8 x0 x1 xs0 xs1 hc0 hc1)]
  unfold kernelRun0_B
  dsimp only
  sl_unfold_words
  rw [View.canon_unit_zero (S := S1024x1) hz2]
  simp only [View.readAt_eq_ld, harg2.read_unread, harg3.read_unread, harg7.read_unread, harg8.read_unread, View.ld_unit_zero (S := S1024x2048) hz2, View.ld_unit_zero (S := S640x2048) hz2, View.ld_unit_zero (S := S1024x1) hz2]

theorem pieceC_2 (hc0 : ¬cond0_0 i) (hc1 : cond0_1 i) :
    (caseC c i arg2 harg2 arg3 harg3 arg4 harg4 arg5 harg5 arg6 harg6 arg7 harg7 arg8 harg8 x0 x1 xs0 xs1 hc0 hc1).1 = k0_pay4 x0 x1 := by
  unfold caseC; dsimp only
  rw [View.read_writes_eq_canon _ _ _ (cover0_C_2 c i arg2 harg2 arg3 harg3 arg4 harg4 arg5 harg5 arg6 harg6 arg7 harg7 arg8 harg8 x0 x1 xs0 xs1 hc0 hc1)]
  unfold kernelRun0_C
  dsimp only
  sl_unfold_words
  rw [View.canon_unit_zero (S := S1024x640) hz2]
  simp only [View.readAt_eq_ld, harg2.read_unread, harg3.read_unread, View.ld_unit_zero (S := S1024x2048) hz2, View.ld_unit_zero (S := S640x2048) hz2]

theorem pieceC_s0 (hc0 : ¬cond0_0 i) (hc1 : cond0_1 i) :
    (caseC c i arg2 harg2 arg3 harg3 arg4 harg4 arg5 harg5 arg6 harg6 arg7 harg7 arg8 harg8 x0 x1 xs0 xs1 hc0 hc1).2.2.2.1 = k0_pay7 x0 x1 xs0 := by
  unfold caseC; dsimp only
  rw [View.read_writes_eq_canon _ _ _ (scover0_C_0 c i arg2 harg2 arg3 harg3 arg4 harg4 arg5 harg5 arg6 harg6 arg7 harg7 arg8 harg8 x0 x1 xs0 xs1 hc0 hc1)]
  unfold kernelRun0_C
  dsimp only
  sl_unfold_words
  rw [View.canon_unit_zero (S := S1024x1) hz2]
  simp only [View.readAt_eq_ld, harg2.read_unread, harg3.read_unread, harg7.read_unread, harg8.read_unread, View.ld_unit_zero (S := S1024x2048) hz2, View.ld_unit_zero (S := S640x2048) hz2, View.ld_unit_zero (S := S1024x1) hz2]

theorem pieceC_s1 (hc0 : ¬cond0_0 i) (hc1 : cond0_1 i) :
    (caseC c i arg2 harg2 arg3 harg3 arg4 harg4 arg5 harg5 arg6 harg6 arg7 harg7 arg8 harg8 x0 x1 xs0 xs1 hc0 hc1).2.2.2.2 = k0_pay8 x0 x1 xs0 xs1 := by
  unfold caseC; dsimp only
  rw [View.read_writes_eq_canon _ _ _ (scover0_C_1 c i arg2 harg2 arg3 harg3 arg4 harg4 arg5 harg5 arg6 harg6 arg7 harg7 arg8 harg8 x0 x1 xs0 xs1 hc0 hc1)]
  unfold kernelRun0_C
  dsimp only
  sl_unfold_words
  rw [View.canon_unit_zero (S := S1024x1) hz2]
  simp only [View.readAt_eq_ld, harg2.read_unread, harg3.read_unread, harg7.read_unread, harg8.read_unread, View.ld_unit_zero (S := S1024x2048) hz2, View.ld_unit_zero (S := S640x2048) hz2, View.ld_unit_zero (S := S1024x1) hz2]

theorem pieceC_3 (hc0 : ¬cond0_0 i) (hc1 : cond0_1 i) :
    (caseC c i arg2 harg2 arg3 harg3 arg4 harg4 arg5 harg5 arg6 harg6 arg7 harg7 arg8 harg8 x0 x1 xs0 xs1 hc0 hc1).2.1 = k0_pay7 x0 x1 xs0 := by
  unfold caseC; dsimp only
  rw [View.read_writes_eq_canon _ _ _ (cover0_C_3 c i arg2 harg2 arg3 harg3 arg4 harg4 arg5 harg5 arg6 harg6 arg7 harg7 arg8 harg8 x0 x1 xs0 xs1 hc0 hc1)]
  unfold kernelRun0_C
  dsimp only
  sl_unfold_words
  rw [View.canon_unit_zero (S := S1024x1) hz2]
  simp only [View.readAt_eq_ld, harg2.read_unread, harg3.read_unread, harg7.read_unread, harg8.read_unread, View.ld_unit_zero (S := S1024x2048) hz2, View.ld_unit_zero (S := S640x2048) hz2, View.ld_unit_zero (S := S1024x1) hz2, View.readCov_unit_zero (S := S1024x1) _ hz2]

theorem pieceC_4 (hc0 : ¬cond0_0 i) (hc1 : cond0_1 i) :
    (caseC c i arg2 harg2 arg3 harg3 arg4 harg4 arg5 harg5 arg6 harg6 arg7 harg7 arg8 harg8 x0 x1 xs0 xs1 hc0 hc1).2.2.1 = k0_pay8 x0 x1 xs0 xs1 := by
  unfold caseC; dsimp only
  rw [View.read_writes_eq_canon _ _ _ (cover0_C_4 c i arg2 harg2 arg3 harg3 arg4 harg4 arg5 harg5 arg6 harg6 arg7 harg7 arg8 harg8 x0 x1 xs0 xs1 hc0 hc1)]
  unfold kernelRun0_C
  dsimp only
  sl_unfold_words
  rw [View.canon_unit_zero (S := S1024x1) hz2]
  simp only [View.readAt_eq_ld, harg2.read_unread, harg3.read_unread, harg7.read_unread, harg8.read_unread, View.ld_unit_zero (S := S1024x2048) hz2, View.ld_unit_zero (S := S640x2048) hz2, View.ld_unit_zero (S := S1024x1) hz2, View.readCov_unit_zero (S := S1024x1) _ hz2]

end Cases

end Cert.KernelIdeal.R0

end
-- ==== Proof.KI.R0Cover.lean ====
import proofs.«107961_j68968584839721_2_alg».proof.Proof.KI.R0Frame
import Idealize.ShloMosaic.Lib.Pipeline.Value
import Idealize.ShloMosaic.Lib.ValueIdx
import Idealize.ShloMosaic.Lib.ValueLayout

/-!
# Region 0 at the extended reals: from blocks to arrays

The grid is 2 token tiles by 50 vocabulary tiles walked row-major: point `t` has token tile `t / 50` and vocabulary
tile `t % 50`. The logits window's blocks [1024, 640] tile the logits array [2048, 32000] with block index
(token tile, vocabulary tile); the two column windows' blocks [1024, 1] tile their arrays [2048, 1] with block index
(token tile, 0) and are written back at the last vocabulary tile only. So an output array ends holding a function `G`
as soon as, at every point that writes back, the block the body leaves is the restriction of `G` to the block's
rectangle — row `1024 (t / 50) + p`, column `640 (t % 50) + q` (or column 0). The input blocks are read the same way.
-/

set_option maxRecDepth 16384

noncomputable section

namespace Cert.KernelIdeal.R0

open Cert.KernelIdeal Cert.KernelIdeal.Gen Idealize.ShloMosaic Idealize.ShloMosaic.TcCoe Idealize.SL.Sem
open Idealize.ShloMosaic.Pipeline (Dat)
open Idealize.ShloMosaic.ValueIdx

/-! ## The grid's arithmetic -/

/-- A point is below 100. -/
theorem cov_t_lt (t : Fin cfg0.N) : t.val < 100 := Nat.lt_of_lt_of_eq t.isLt N_0

/-- Row `p` of token tile `t / 50` is a row of the array. -/
theorem cov_row_lt (t : Fin cfg0.N) (p : Fin 1024) : 1024 * (t.val / 50) + p.val < 2048 := by
  have := cov_t_lt t; have := p.isLt; omega

/-- Column `q` of vocabulary tile `t % 50` is a column of the logits array. -/
theorem cov_col_lt (t : Fin cfg0.N) (q : Fin 640) : 640 * (t.val % 50) + q.val < 32000 := by
  have := q.isLt; omega

/-- The printed index maps, decided over the grid's hundred points. -/
theorem cov_idx_facts : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = t.val % 50
    ∧ win0_3.index t (0 : Fin 2) = t.val / 50 ∧ win0_3.index t (1 : Fin 2) = 0
    ∧ win0_4.index t (0 : Fin 2) = t.val / 50 ∧ win0_4.index t (1 : Fin 2) = 0 :=
  (by decide +kernel : ∀ t : Fin grid0.N, _)

section Cover
variable (V : (c : Dev nD) → (b : Ref sig .tc) → Buf (Elt Ideal) ((c : Thread nD τ).loc b))

/-! ## The input blocks as parts of the entry arrays -/

/-- The activations block at point `t`: rows `1024 (t / 50) …` of the activations, every column. -/
theorem iblk0_0_apply (c : Dev nD) (t : Fin cfg0.N) (p : Fin 1024) (k : Fin 2048) :
    (iblk0 V c 0 t : Vec Ideal S1024x2048 .f32) (ix2 p k)
      = (V c main_arg0 : S2048x2048.Idx → EReal) (ix2 ⟨1024 * (t.val / 50) + p.val, cov_row_lt t p⟩ k) := by
  obtain ⟨e0, e1, -⟩ := cov_idx_facts t
  unfold iblk0
  rw [View.read_apply]
  show (V c main_arg0 : S2048x2048.Idx → EReal) _ = V c main_arg0 _
  refine congrArg _ (funext fun a => Fin.ext ?_)
  match a with
  | ⟨0, _⟩ => show win0_0.index t (0 : Fin 2) * 1024 + 1 * p.val = 1024 * (t.val / 50) + p.val; omega
  | ⟨1, _⟩ => show win0_0.index t (1 : Fin 2) * 2048 + 1 * k.val = k.val; omega

/-- The weights block at point `t`: rows `640 (t % 50) …` of the weights, every column. -/
theorem iblk0_1_apply (c : Dev nD) (t : Fin cfg0.N) (q : Fin 640) (k : Fin 2048) :
    (iblk0 V c 1 t : Vec Ideal S640x2048 .f32) (ix2 q k)
      = (V c main_arg2 : S32000x2048.Idx → EReal) (ix2 ⟨640 * (t.val % 50) + q.val, cov_col_lt t q⟩ k) := by
  obtain ⟨-, -, e2, e3, -⟩ := cov_idx_facts t
  unfold iblk0
  rw [View.read_apply]
  show (V c main_arg2 : S32000x2048.Idx → EReal) _ = V c main_arg2 _
  refine congrArg _ (funext fun a => Fin.ext ?_)
  match a with
  | ⟨0, _⟩ => show win0_1.index t (0 : Fin 2) * 640 + 1 * q.val = 640 * (t.val % 50) + q.val; omega
  | ⟨1, _⟩ => show win0_1.index t (1 : Fin 2) * 2048 + 1 * k.val = k.val; omega

/-! ## A block that is a restriction of `G` is the block's read of `G` -/

/-- The logits window: contents `X` of the block that agree with `G` at row `1024 (t / 50) + p`, column
    `640 (t % 50) + q` are `G` read through the block's rectangle at `t`. -/
theorem cov_read_2 (t : Fin cfg0.N) (X : S1024x640.Idx → EReal) (G : S2048x32000.Idx → EReal)
    (h : ∀ (p : Fin 1024) (q : Fin 640), X (ix2 p q) = G (ix2 ⟨1024 * (t.val / 50) + p.val, cov_row_lt t p⟩ ⟨640 * (t.val % 50) + q.val, cov_col_lt t q⟩)) :
    X = ((cfg0.win 2).blk t).view.read (Elt Ideal) G := by
  obtain ⟨-, -, -, -, e4, e5, -⟩ := cov_idx_facts t
  funext j
  obtain ⟨p, q, rfl⟩ : ∃ (p : Fin 1024) (q : Fin 640), j = ix2 p q := ⟨j 0, j 1, eq_ix2 j⟩
  rw [h p q, View.read_apply]
  show G _ = G _
  refine congrArg G (funext fun a => Fin.ext ?_)
  match a with
  | ⟨0, _⟩ => show 1024 * (t.val / 50) + p.val = win0_2.index t (0 : Fin 2) * 1024 + 1 * p.val; omega
  | ⟨1, _⟩ => show 640 * (t.val % 50) + q.val = win0_2.index t (1 : Fin 2) * 640 + 1 * q.val; omega

/-- The row-maxima window: a column block that agrees with `G` at row `1024 (t / 50) + p` is `G` read through the
    block's rectangle at `t`. -/
theorem cov_read_3 (t : Fin cfg0.N) (X : S1024x1.Idx → EReal) (G : S2048x1.Idx → EReal)
    (h : ∀ p : Fin 1024, X (ix2 p (0 : Fin 1)) = G (ix2 ⟨1024 * (t.val / 50) + p.val, cov_row_lt t p⟩ (0 : Fin 1))) :
    X = ((cfg0.win 3).blk t).view.read (Elt Ideal) G := by
  obtain ⟨-, -, -, -, -, -, e6, e7, -⟩ := cov_idx_facts t
  funext j
  obtain ⟨p, u, rfl⟩ : ∃ (p : Fin 1024) (u : Fin 1), j = ix2 p u := ⟨j 0, j 1, eq_ix2 j⟩
  obtain rfl : u = 0 := Subsingleton.elim _ _
  rw [h p, View.read_apply]
  show G _ = G _
  refine congrArg G (funext fun a => Fin.ext ?_)
  match a with
  | ⟨0, _⟩ => show 1024 * (t.val / 50) + p.val = win0_3.index t (0 : Fin 2) * 1024 + 1 * p.val; omega
  | ⟨1, _⟩ => show 0 = win0_3.index t (1 : Fin 2) * 1 + 1 * 0; omega

/-- The row-sums window, as the row maxima's. -/
theorem cov_read_4 (t : Fin cfg0.N) (X : S1024x1.Idx → EReal) (G : S2048x1.Idx → EReal)
    (h : ∀ p : Fin 1024, X (ix2 p (0 : Fin 1)) = G (ix2 ⟨1024 * (t.val / 50) + p.val, cov_row_lt t p⟩ (0 : Fin 1))) :
    X = ((cfg0.win 4).blk t).view.read (Elt Ideal) G := by
  obtain ⟨-, -, -, -, -, -, -, -, e8, e9⟩ := cov_idx_facts t
  funext j
  obtain ⟨p, u, rfl⟩ : ∃ (p : Fin 1024) (u : Fin 1), j = ix2 p u := ⟨j 0, j 1, eq_ix2 j⟩
  obtain rfl : u = 0 := Subsingleton.elim _ _
  rw [h p, View.read_apply]
  show G _ = G _
  refine congrArg G (funext fun a => Fin.ext ?_)
  match a with
  | ⟨0, _⟩ => show 1024 * (t.val / 50) + p.val = win0_4.index t (0 : Fin 2) * 1024 + 1 * p.val; omega
  | ⟨1, _⟩ => show 0 = win0_4.index t (1 : Fin 2) * 1 + 1 * 0; omega

/-! ## The blocks cover the arrays -/

/-- Row `r`, column `q` of the logits array is in the block of point `50 (r / 1024) + q / 640`. -/
theorem cov_cover_2 (i : S2048x32000.Idx) :
    ∃ t : Fin cfg0.N, (cfg0.win 2).flush t = true ∧ i ∈ ((cfg0.win 2).blk t).view.set := by
  have hi0 : (i 0).val < 2048 := (i 0).isLt
  have hi1 : (i 1).val < 32000 := (i 1).isLt
  obtain ⟨t, ht⟩ : ∃ t : Fin cfg0.N, t.val = 50 * ((i 0).val / 1024) + (i 1).val / 640 :=
    ⟨⟨50 * ((i 0).val / 1024) + (i 1).val / 640, Nat.lt_of_lt_of_eq (by omega) N_0.symm⟩, rfl⟩
  obtain ⟨-, -, -, -, e4, e5, -⟩ := cov_idx_facts t
  refine ⟨t, flush0_2 t, ?_⟩
  show i ∈ ((View.whole main_v0_0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 640 ≤ (i 1).val ∧ (i 1).val < win0_2.index t (1 : Fin 2) * 640 + 640; omega

/-- Row `r` of the row-maxima array is in the block of point `50 (r / 1024) + 49`, which writes back. -/
theorem cov_cover_3 (i : S2048x1.Idx) :
    ∃ t : Fin cfg0.N, (cfg0.win 3).flush t = true ∧ i ∈ ((cfg0.win 3).blk t).view.set := by
  have hi0 : (i 0).val < 2048 := (i 0).isLt
  have hi1 : (i 1).val < 1 := (i 1).isLt
  obtain ⟨t, ht⟩ : ∃ t : Fin cfg0.N, t.val = 50 * ((i 0).val / 1024) + 49 :=
    ⟨⟨50 * ((i 0).val / 1024) + 49, Nat.lt_of_lt_of_eq (by omega) N_0.symm⟩, rfl⟩
  obtain ⟨-, -, -, -, -, -, e6, e7, -⟩ := cov_idx_facts t
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1 ≤ (i 1).val ∧ (i 1).val < win0_3.index t (1 : Fin 2) * 1 + 1; omega

/-- Row `r` of the row-sums array, likewise. -/
theorem cov_cover_4 (i : S2048x1.Idx) :
    ∃ t : Fin cfg0.N, (cfg0.win 4).flush t = true ∧ i ∈ ((cfg0.win 4).blk t).view.set := by
  have hi0 : (i 0).val < 2048 := (i 0).isLt
  have hi1 : (i 1).val < 1 := (i 1).isLt
  obtain ⟨t, ht⟩ : ∃ t : Fin cfg0.N, t.val = 50 * ((i 0).val / 1024) + 49 :=
    ⟨⟨50 * ((i 0).val / 1024) + 49, Nat.lt_of_lt_of_eq (by omega) N_0.symm⟩, rfl⟩
  obtain ⟨-, -, -, -, -, -, -, -, e8, e9⟩ := cov_idx_facts t
  refine ⟨t, (flush0_4 t).mpr (by omega), ?_⟩
  show i ∈ ((View.whole main_v0_2).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-! ## The three output arrays after the region -/

/-- THE LOGITS ARRAY after the region is `G`, when at every point the logits block the body leaves is `G` on the
    block's rectangle. -/
theorem final0_2 (c : Dev nD) (G : S2048x32000.Idx → EReal)
    (h : ∀ (t : Fin cfg0.N) (p : Fin 1024) (q : Fin 640),
      ((dat0 (F := Ideal) V c).after 2 t : S1024x640.Idx → EReal) (ix2 p q)
        = G (ix2 ⟨1024 * (t.val / 50) + p.val, cov_row_lt t p⟩ ⟨640 * (t.val % 50) + q.val, cov_col_lt t q⟩)) :
    (dat0 (F := Ideal) V c).arrAt 2 cfg0.N = G :=
  (dat0 V c).arrAt_eq_of_cover 2 G (fun t _ => cov_read_2 t ((dat0 (F := Ideal) V c).after 2 t) G (h t)) cov_cover_2

/-- THE ROW-MAXIMA ARRAY after the region is `G`, when at every last vocabulary tile the column block the body leaves
    is `G` on the block's rows. -/
theorem final0_3 (c : Dev nD) (G : S2048x1.Idx → EReal)
    (h : ∀ (t : Fin cfg0.N), t.val % 50 = 49 → ∀ p : Fin 1024,
      ((dat0 (F := Ideal) V c).after 3 t : S1024x1.Idx → EReal) (ix2 p (0 : Fin 1))
        = G (ix2 ⟨1024 * (t.val / 50) + p.val, cov_row_lt t p⟩ (0 : Fin 1))) :
    (dat0 (F := Ideal) V c).arrAt 3 cfg0.N = G :=
  (dat0 V c).arrAt_eq_of_cover 3 G
    (fun t hf => cov_read_3 t ((dat0 (F := Ideal) V c).after 3 t) G (h t ((flush0_3 t).mp hf))) cov_cover_3

/-- THE ROW-SUMS ARRAY after the region, likewise. -/
theorem final0_4 (c : Dev nD) (G : S2048x1.Idx → EReal)
    (h : ∀ (t : Fin cfg0.N), t.val % 50 = 49 → ∀ p : Fin 1024,
      ((dat0 (F := Ideal) V c).after 4 t : S1024x1.Idx → EReal) (ix2 p (0 : Fin 1))
        = G (ix2 ⟨1024 * (t.val / 50) + p.val, cov_row_lt t p⟩ (0 : Fin 1))) :
    (dat0 (F := Ideal) V c).arrAt 4 cfg0.N = G :=
  (dat0 V c).arrAt_eq_of_cover 4 G
    (fun t hf => cov_read_4 t ((dat0 (F := Ideal) V c).after 4 t) G (h t ((flush0_4 t).mp hf))) cov_cover_4

end Cover

end Cert.KernelIdeal.R0

end
-- ==== Proof.Spec.lean ====
/-
  The mathematics of a row softmax accumulated tile by tile, on the extended reals.

  A row of 32000 logits `r` is read in 50 tiles of 640. The running state after the tiles before `n` is a pair
  (m, l): m the maximum so far (from -∞), l the sum so far of exp (r q - m) (from 0). One more tile `zt` moves it to
  m' = max m (max of the tile) and l' = exp (m - m') * l + Σ_k exp (zt k - m'): the old sum rescaled to the new
  maximum, plus the tile's own terms. When every logit is a real number, after all 50 tiles m is the row's maximum
  and l is Σ_q exp (r q - m) — the two numbers a one-pass softmax divides by. The rescaling step is the one place
  the argument needs real numbers: exp (m - m') * exp (x - m) = exp (x - m') and the product distributes over the sum
  only away from the infinities; the first tile meets m = -∞, where exp (-∞) = 0 multiplies l = 0.
-/
import Idealize.ShloMosaic.PureOps.Ideal
import Idealize.ShloMosaic.PureOps.Ideal.Laws
import Idealize.ShloMosaic.Lib.ValueIdx

noncomputable section

open scoped BigOperators

namespace Cert.Softmax

open Idealize.ShloMosaic Idealize.ShloMosaic.ValueIdx

/-- The logit of token `p` and vocabulary entry `q`: the inner product of row `p` of `x` and row `q` of `w`. -/
def logit (x : Fin 2048 → Fin 2048 → EReal) (w : Fin 32000 → Fin 2048 → EReal) (p : Fin 2048) (q : Fin 32000) : EReal :=
  ∑ k : Fin 2048, x p k * w q k

/-- A row's maximum, folded from -∞. -/
def rowMax (r : Fin 32000 → EReal) : EReal := (Finset.univ : Finset (Fin 32000)).fold max ⊥ r

/-- A row's sum of exponentials about a centre `c`. -/
def rowSum (r : Fin 32000 → EReal) (c : EReal) : EReal := ∑ q : Fin 32000, Ideal.exp (r q - c)

/-- The softmax of a row at entry `q`. -/
def soft (r : Fin 32000 → EReal) (q : Fin 32000) : EReal :=
  Ideal.div (Ideal.exp (r q - rowMax r)) (rowSum r (rowMax r))

/-- Tile `n` of a row: entries 640 n … 640 n + 639 (zero past the row's end, which no tile below 50 reaches). -/
def tileOf (r : Fin 32000 → EReal) (n : ℕ) (k : Fin 640) : EReal :=
  if h : 640 * n + k.val < 32000 then r ⟨640 * n + k.val, h⟩ else 0

/-- A tile's maximum, folded from -∞. -/
def tileMax (zt : Fin 640 → EReal) : EReal := (Finset.univ : Finset (Fin 640)).fold max ⊥ zt

/-- One tile's move of the running (maximum, sum). -/
def step (zt : Fin 640 → EReal) (s : EReal × EReal) : EReal × EReal :=
  (max s.1 (tileMax zt), Ideal.exp (s.1 - max s.1 (tileMax zt)) * s.2 + ∑ k : Fin 640, Ideal.exp (zt k - max s.1 (tileMax zt)))

/-- The running (maximum, sum) after the first `n` tiles of a row. -/
def st (r : Fin 32000 → EReal) : ℕ → EReal × EReal
  | 0 => (⊥, 0)
  | n + 1 => step (tileOf r n) (st r n)

/-- The whole result: entry (p, q) is the softmax of row p of the logits of `x` against `w` at q. -/
def softArr (x : (⟨2, ![2048, 2048]⟩ : Shape).Idx → EReal) (w : (⟨2, ![32000, 2048]⟩ : Shape).Idx → EReal) :
    (⟨2, ![2048, 32000]⟩ : Shape).Idx → EReal :=
  fun i => soft (logit (fun p k => x (ix2 p k)) (fun q k => w (ix2 q k)) (i 0)) (i 1)

end Cert.Softmax

end
-- ==== Proof.LibDotT.lean ====
/-
  A matrix product whose right operand is stored transposed, read at an index, at the extended reals. For dimension
  numbers that contract the second axis of BOTH operands and have no batch axis — an `[A, K]` array against a
  `[B, K]` array into `[A, B]` — the kernel's matrix product into a zero accumulator and the host's general dot
  product are both, at row `p` and column `q`, the sum over the contracted coordinate `k` of the left operand at
  `(p, k)` times the right operand at `(q, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {A K B : ℕ} {φ₁ φ₂ : FTy}

/-- Reading an index at two equal positions gives equal coordinates. -/
private theorem coord_congr {s : Shape} (j : s.Idx) (a b : Nat) (ha : a < s.rank) (hb : b < s.rank) (h : a = b) :
    (j ⟨a, ha⟩).val = (j ⟨b, hb⟩).val := by subst h; rfl

/-- The left operand's index has the output's row. -/
theorem lhsIdx_row (d : DotDims ⟨2, ![A, K]⟩ ⟨2, ![B, K]⟩ ⟨2, ![A, B]⟩)
    (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's FIRST axis has the output's column. -/
theorem rhsIdx_row (d : DotDims ⟨2, ![A, K]⟩ ⟨2, ![B, K]⟩ ⟨2, ![A, B]⟩)
    (hlb : d.lhsBatch = []) (hln : d.lhsNonContracting = [0])
    (hrb : d.rhsBatch = []) (hrn : d.rhsNonContracting = [0])
    (j : (⟨2, ![A, B]⟩ : Shape).Idx) (k : d.contr.Idx) : (d.rhsIdx j k 0).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction sum re-indexed by the contracted coordinate. -/
theorem plain_sum (d : DotDims ⟨2, ![A, K]⟩ ⟨2, ![B, K]⟩ ⟨2, ![A, B]⟩)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (l : FVec Ideal ⟨2, ![A, K]⟩ φ₁) (r : FVec Ideal ⟨2, ![B, K]⟩ φ₂) (p : Fin A) (q : Fin B) :
    ∑ k : d.contr.Idx, l (d.lhsIdx (ix2 p q) k) * r (d.rhsIdx (ix2 p q) k) = ∑ k : Fin K, l (ix2 p k) * r (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhsIdx_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhsIdx_row d hlb hln hrb hrn _ _
    | ⟨1, _⟩ => exact (d.rhsIdx_val_of_single hrc _ _).trans hk)
  rw [el, er]

/-- The kernel's matrix product into a zero accumulator, at `(p, q)`. -/
theorem matmul_zero_apply (d : DotDims ⟨2, ![A, K]⟩ ⟨2, ![B, K]⟩ ⟨2, ![A, B]⟩) (prec : Option ContractPrecision)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (l : FVec Ideal ⟨2, ![A, K]⟩ φ₁) (r : FVec Ideal ⟨2, ![B, K]⟩ φ₂) (p : Fin A) (q : Fin B) :
    matmul d prec l r (constant (F := Ideal) ⟨2, ![A, B]⟩ .f32 0x00000000#32) (ix2 p q) = ∑ k : Fin K, l (ix2 p k) * r (ix2 q k) := by
  simp only [matmul]
  rw [Ideal.matmul_constant_zero_apply]
  exact plain_sum d hlb hln hlc hrb hrn hrc hr hs l r p q

/-- The host's general dot product, at `(p, q)`. -/
theorem dotGeneral_apply (d : DotDims ⟨2, ![A, K]⟩ ⟨2, ![B, K]⟩ ⟨2, ![A, B]⟩) (prec : Option ContractPrecision)
    (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (l : FVec Ideal ⟨2, ![A, K]⟩ φ₁) (r : FVec Ideal ⟨2, ![B, K]⟩ φ₂) (p : Fin A) (q : Fin B) :
    Host.dotGeneral d prec l r (ix2 p q) = ∑ k : Fin K, l (ix2 p k) * r (ix2 q k) := by
  simp only [Host.dotGeneral]
  rw [Ideal.dotGeneral_apply]
  exact plain_sum d hlb hln hlc hrb hrn hrc hr hs l r p q

end Cert.LibDotT

end
-- ==== Proof.KI.Pay.lean ====
/-
  The first kernel's payloads read at an index, at the extended reals.

  The matrix unit's product of the block of `x` and the block of `w` (the right operand stored transposed) is, at
  row `p` and column `q`, the inner product Σ_k x(p,k) w(q,k); the narrowing to bf16 and back is the identity here, so
  the stored tile and the tile the statistics are taken of are both that product. The new running maximum of row
  `p` is max (old maximum) (maximum of the tile's row), and the new running sum is
  exp (old maximum - new maximum) * (old sum) + Σ_k exp (tile(p,k) - new maximum): the first and second
  components of `Cert.Softmax.step` on the tile's row.
-/
import proofs.«107961_j68968584839721_2_alg».proof.Proof.Gen.KernelIdeal.Skeleton
import proofs.«107961_j68968584839721_2_alg».proof.Proof.Spec
import proofs.«107961_j68968584839721_2_alg».proof.Proof.LibRows
import proofs.«107961_j68968584839721_2_alg».proof.Proof.LibDotT
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The f32 word of -∞ is the bottom of the extended reals. -/
theorem ofBits_negInf_f32 : Ideal.ofBits .f32 0xFF800000#32 = (⊥ : EReal) := by
  simp [Ideal.ofBits, Ideal.ieee]

/-- A lane maximum of an `[a, b]` array into `[a]`, at the extended reals, is at `p` the fold of `max` over row `p`
    from the accumulator's value. -/
theorem rowMax_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine Finset.fold_congr fun k _ => congrArg src ?_
  funext ax
  apply Fin.ext
  match ax with
  | ⟨0, _⟩ => rfl
  | ⟨1, _⟩ => rfl

/-- The two components of one tile's move, written out. -/
theorem step_fst (zt : Fin 640 → EReal) (m l : EReal) :
    (Cert.Softmax.step zt (m, l)).1 = max m (Cert.Softmax.tileMax zt) := by
  simp only [Cert.Softmax.step]

theorem step_snd (zt : Fin 640 → EReal) (m l : EReal) :
    (Cert.Softmax.step zt (m, l)).2
      = Ideal.exp (m - max m (Cert.Softmax.tileMax zt)) * l
        + ∑ k : Fin 640, Ideal.exp (zt k - max m (Cert.Softmax.tileMax zt)) := by
  simp only [Cert.Softmax.step]

variable (x0 : Vec Ideal S1024x2048 .f32) (x1 : Vec Ideal S640x2048 .f32) (v13 v22 : Vec Ideal S1024x1 .f32)
  (p : Fin 1024) (q : Fin 640)

/-- The initial running maximum: a column of -∞. -/
theorem pay1_apply : k0_pay1 (F := Ideal) (ix2 p 0) = (⊥ : EReal) := by
  unfold k0_pay1
  refine (congrFun (shapeCast_self _ _) (ix2 p 0)).trans ?_
  exact ofBits_negInf_f32

/-- The initial running sum: a column of 0. -/
theorem pay2_apply : k0_pay2 (F := Ideal) (ix2 p 0) = (0 : EReal) := by
  unfold k0_pay2
  refine (congrFun (shapeCast_self _ _) (ix2 p 0)).trans ?_
  exact Ideal.ofBits_zero_f32

/-- The matrix unit's product at `(p, q)`: the inner product of row `p` of the first block and row `q` of the second. -/
theorem pay3_apply : k0_pay3 (F := Ideal) x0 x1 (ix2 p q) = ∑ k : Fin 2048, x0 (ix2 p k) * x1 (ix2 q k) := by
  unfold k0_pay3
  exact Cert.LibDotT.matmul_zero_apply dot_S1024x2048_S640x2048_S1024x640_1_1_0_0_n_n none rfl rfl rfl rfl rfl rfl rfl rfl
    (truncf .bf16 x0 bitsLt_bf16_f32) (truncf .bf16 x1 bitsLt_bf16_f32) p q

/-- The tile the statistics are taken of is that product. -/
theorem pay5_apply : k0_pay5 (F := Ideal) x0 x1 (ix2 p q) = ∑ k : Fin 2048, x0 (ix2 p k) * x1 (ix2 q k) :=
  pay3_apply x0 x1 p q

/-- The stored tile is that product: narrowing to bf16 is the identity at the extended reals. -/
theorem pay4_apply : k0_pay4 (F := Ideal) x0 x1 (ix2 p q) = ∑ k : Fin 2048, x0 (ix2 p k) * x1 (ix2 q k) :=
  pay3_apply x0 x1 p q

/-- The new running maximum of row `p`. -/
theorem pay6_apply :
    k0_pay6 (F := Ideal) x0 x1 v13 (ix2 p 0)
      = max (v13 (ix2 p 0)) (Cert.Softmax.tileMax (fun q => k0_pay5 (F := Ideal) x0 x1 (ix2 p q))) := by
  unfold k0_pay6
  refine (maximumf_apply v13 _ (ix2 p 0)).trans ?_
  refine congrArg (max (v13 (ix2 p 0))) ?_
  refine (Cert.LibRows.shapeCast_a_a1_apply _ _ p 0).trans ?_
  refine (rowMax_apply _ _ _ _ _ p).trans ?_
  unfold Cert.Softmax.tileMax
  rw [ofBits_negInf_f32]

theorem pay7_apply :
    k0_pay7 (F := Ideal) x0 x1 v13 (ix2 p 0)
      = (Cert.Softmax.step (fun q => k0_pay5 (F := Ideal) x0 x1 (ix2 p q)) (v13 (ix2 p 0), v22 (ix2 p 0))).1 := by
  unfold k0_pay7
  refine (congrFun (shapeCast_self _ _) (ix2 p 0)).trans ?_
  rw [step_fst]
  exact pay6_apply x0 x1 v13 p

theorem pay8_apply :
    k0_pay8 (F := Ideal) x0 x1 v13 v22 (ix2 p 0)
      = (Cert.Softmax.step (fun q => k0_pay5 (F := Ideal) x0 x1 (ix2 p q)) (v13 (ix2 p 0), v22 (ix2 p 0))).2 := by
  unfold k0_pay8
  refine (congrFun (shapeCast_self _ _) (ix2 p 0)).trans ?_
  rw [step_snd, ← pay6_apply x0 x1 v13 p]
  refine (addf_apply _ _ (ix2 p 0)).trans ?_
  refine congrArg₂ (· + ·) ?_ ?_
  · rfl
  · refine (Cert.LibRows.shapeCast_a_a1_apply _ _ p 0).trans ?_
    refine (Cert.LibRows.rowSum_apply _ _ _ _ _ p).trans ?_
    refine Finset.sum_congr rfl fun k _ => ?_
    refine congrArg Ideal.exp ?_
    refine congrArg (k0_pay5 (F := Ideal) x0 x1 (ix2 p k) - ·) ?_
    exact Cert.LibRows.broadcastTo_a1_ab_apply _ _ p k

end Cert.KernelIdeal.Pay

end
-- ==== Proof.SpecLaws.lean ====
/-
  Laws of the tile-by-tile softmax state of `Spec`: a logit of real inputs is real, and for a row of real
  logits the running (maximum, sum) after all 50 tiles is (the row's maximum, the row's sum of exponentials
  about that maximum).

  The argument. Write `pre n` for the first 640 n coordinates of the row and `tile n` for the next 640. The state
  after n tiles is (sup over `pre n`, Σ over `pre n` of exp (r q - that sup)). One more tile keeps this: the new
  maximum is the sup over `pre n ∪ tile n`; the old sum is rescaled by exp (m - m'), and for real m, m' and real
  logits exp (m - m') * Σ exp (r q - m) = Σ exp (r q - m') by exp (a + b) = exp a * exp b inside the reals. When
  `pre n` is empty the old sum is the empty sum 0 and the product is 0 whatever the factor is.
-/
import proofs.«107961_j68968584839721_2_alg».proof.Proof.Spec

noncomputable section

open scoped BigOperators

namespace Cert.Softmax

open Idealize.ShloMosaic

section General

variable {ι : Type*}

/-- The coercion of a finite sum of reals is the sum of the coercions. -/
theorem ereal_coe_sum (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The supremum of a nonempty finite family of reals is one of them, so it is real. -/
theorem sup_coe_real (s : Finset ι) (hs : s.Nonempty) (ρ : ι → ℝ) :
    ∃ a : ℝ, s.sup (fun q => (ρ q : EReal)) = (a : EReal) := by
  obtain ⟨i, _, hi⟩ := Finset.exists_mem_eq_sup s hs (fun q => (ρ q : EReal))
  exact ⟨ρ i, hi⟩

/-- Moving the centre of a sum of exponentials from `a` to `c`, all numbers real. -/
theorem exp_rescale (s : Finset ι) (ρ : ι → ℝ) (a c : ℝ) :
    Ideal.exp ((a : EReal) - (c : EReal)) * ∑ q ∈ s, Ideal.exp ((ρ q : EReal) - (a : EReal))
      = ∑ q ∈ s, Ideal.exp ((ρ q : EReal) - (c : EReal)) := by
  simp only [← EReal.coe_sub, Ideal.exp_coe, ← ereal_coe_sum, ← EReal.coe_mul]
  congr 1
  rw [Finset.mul_sum]
  refine Finset.sum_congr rfl fun q _ => ?_
  rw [← Real.exp_add]
  congr 1
  ring

/-- One accumulation step over disjoint index sets `s` (seen so far) and `t` (the new tile). -/
theorem exp_accumulate [DecidableEq ι] (s t : Finset ι) (hd : Disjoint s t) (ρ : ι → ℝ) :
    Ideal.exp (s.sup (fun q => (ρ q : EReal)) - (s ∪ t).sup (fun q => (ρ q : EReal)))
        * (∑ q ∈ s, Ideal.exp ((ρ q : EReal) - s.sup (fun q => (ρ q : EReal))))
      + ∑ q ∈ t, Ideal.exp ((ρ q : EReal) - (s ∪ t).sup (fun q => (ρ q : EReal)))
      = ∑ q ∈ s ∪ t, Ideal.exp ((ρ q : EReal) - (s ∪ t).sup (fun q => (ρ q : EReal))) := by
  rw [Finset.sum_union hd]
  congr 1
  rcases s.eq_empty_or_nonempty with rfl | hs
  · simp
  · obtain ⟨a, ha⟩ := sup_coe_real s hs ρ
    obtain ⟨c, hc⟩ := sup_coe_real (s ∪ t) (hs.mono Finset.subset_union_left) ρ
    rw [ha, hc]
    exact exp_rescale s ρ a c

end General

/-- A logit of real inputs is a real number. -/
theorem logit_real (x : Fin 2048 → Fin 2048 → EReal) (w : Fin 32000 → Fin 2048 → EReal)
    (hx : ∀ p k, ∃ a : ℝ, x p k = (a : EReal)) (hw : ∀ q k, ∃ a : ℝ, w q k = (a : EReal)) (p : Fin 2048) (q : Fin 32000) :
    ∃ a : ℝ, logit x w p q = (a : EReal) := by
  choose a ha using hx
  choose b hb using hw
  refine ⟨∑ k, a p k * b q k, ?_⟩
  rw [logit, ereal_coe_sum]
  refine Finset.sum_congr rfl fun k _ => ?_
  rw [ha, hb, EReal.coe_mul]

/-- The first `640 n` coordinates of a row. -/
def prefixSet (n : ℕ) : Finset (Fin 32000) := Finset.univ.filter (fun q => q.val < 640 * n)

/-- Offset `k` of tile `n` as a coordinate of the row. -/
def tileEmb (n : ℕ) (hn : n < 50) : Fin 640 ↪ Fin 32000 :=
  ⟨fun k => ⟨640 * n + k.val, by omega⟩, fun a b h => by
    have h' : 640 * n + a.val = 640 * n + b.val := congrArg Fin.val h
    exact Fin.ext (by omega)⟩

/-- The coordinates of tile `n`. -/
def tileSet (n : ℕ) (hn : n < 50) : Finset (Fin 32000) := Finset.univ.map (tileEmb n hn)

theorem mem_tileSet (n : ℕ) (hn : n < 50) (q : Fin 32000) :
    q ∈ tileSet n hn ↔ 640 * n ≤ q.val ∧ q.val < 640 * (n + 1) := by
  constructor
  · intro h
    obtain ⟨k, _, rfl⟩ := Finset.mem_map.mp h
    have hk := k.isLt
    show 640 * n ≤ 640 * n + k.val ∧ 640 * n + k.val < 640 * (n + 1)
    omega
  · rintro ⟨h1, h2⟩
    refine Finset.mem_map.mpr ⟨⟨q.val - 640 * n, by omega⟩, Finset.mem_univ _, ?_⟩
    apply Fin.ext
    show 640 * n + (q.val - 640 * n) = q.val
    omega

theorem prefixSet_zero : prefixSet 0 = ∅ := by
  ext q
  simp [prefixSet]

theorem prefixSet_succ (n : ℕ) (hn : n < 50) : prefixSet (n + 1) = prefixSet n ∪ tileSet n hn := by
  ext q
  rw [Finset.mem_union, mem_tileSet]
  simp only [prefixSet, Finset.mem_filter, Finset.mem_univ, true_and]
  omega

theorem prefixSet_disjoint (n : ℕ) (hn : n < 50) : Disjoint (prefixSet n) (tileSet n hn) := by
  rw [Finset.disjoint_left]
  intro q hq hq'
  rw [mem_tileSet] at hq'
  simp only [prefixSet, Finset.mem_filter, Finset.mem_univ, true_and] at hq
  omega

theorem prefixSet_full : prefixSet 50 = Finset.univ := by
  ext q
  have := q.isLt
  simp only [prefixSet, Finset.mem_filter, Finset.mem_univ, true_and, iff_true]
  omega

/-- Tile `n` of a row, read through the embedding. -/
theorem tileOf_eq (r : Fin 32000 → EReal) (n : ℕ) (hn : n < 50) (k : Fin 640) :
    tileOf r n k = r (tileEmb n hn k) := by
  have hk := k.isLt
  have h : 640 * n + k.val < 32000 := by omega
  rw [tileOf, dif_pos h]
  rfl

theorem tileOf_eq' (r : Fin 32000 → EReal) (n : ℕ) (hn : n < 50) :
    tileOf r n = fun k => r (tileEmb n hn k) := funext (tileOf_eq r n hn)

theorem tileMax_eq (r : Fin 32000 → EReal) (n : ℕ) (hn : n < 50) :
    tileMax (tileOf r n) = (tileSet n hn).sup r := by
  rw [tileOf_eq' r n hn, tileSet, Finset.sup_map]
  rfl

theorem tileSum_eq (r : Fin 32000 → EReal) (n : ℕ) (hn : n < 50) (c : EReal) :
    ∑ k : Fin 640, Ideal.exp (tileOf r n k - c) = ∑ q ∈ tileSet n hn, Ideal.exp (r q - c) := by
  rw [tileOf_eq' r n hn, tileSet, Finset.sum_map]

/-- The state after `n` tiles is the (maximum, sum of exponentials about it) of the first `640 n` coordinates. -/
theorem st_prefix (ρ : Fin 32000 → ℝ) (n : ℕ) (hn : n ≤ 50) :
    (st (fun q => (ρ q : EReal)) n).1 = (prefixSet n).sup (fun q => (ρ q : EReal)) ∧
    (st (fun q => (ρ q : EReal)) n).2
      = ∑ q ∈ prefixSet n, Ideal.exp ((ρ q : EReal) - (prefixSet n).sup (fun q => (ρ q : EReal))) := by
  induction n with
  | zero =>
    rw [prefixSet_zero]
    simp [st]
  | succ n ih =>
    have hn' : n < 50 := by omega
    obtain ⟨ih1, ih2⟩ := ih (by omega)
    have hmax : max ((prefixSet n).sup (fun q => (ρ q : EReal))) (tileMax (tileOf (fun q => (ρ q : EReal)) n))
        = (prefixSet (n + 1)).sup (fun q => (ρ q : EReal)) := by
      rw [tileMax_eq _ n hn', prefixSet_succ n hn', Finset.sup_union]
    constructor
    · rw [st, step]
      dsimp only
      rw [ih1, hmax]
    · rw [st, step]
      dsimp only
      rw [ih1, ih2, hmax, tileSum_eq _ n hn', prefixSet_succ n hn']
      exact exp_accumulate (prefixSet n) (tileSet n hn') (prefixSet_disjoint n hn') ρ

/-- After all 50 tiles the state is (the row's maximum, the row's sum of exponentials about it). -/
theorem st_final (r : Fin 32000 → EReal) (hr : ∀ q, ∃ a : ℝ, r q = (a : EReal)) :
    (st r 50).1 = rowMax r ∧ (st r 50).2 = rowSum r (rowMax r) := by
  choose ρ hρ using hr
  obtain rfl : r = fun q => (ρ q : EReal) := funext hρ
  have hmax : rowMax (fun q => (ρ q : EReal)) = (Finset.univ : Finset (Fin 32000)).sup (fun q => (ρ q : EReal)) := rfl
  obtain ⟨h1, h2⟩ := st_prefix ρ 50 le_rfl
  rw [prefixSet_full] at h1 h2
  rw [hmax]
  exact ⟨h1, h2⟩

end Cert.Softmax

end
-- ==== Proof.KI.R0State.lean ====
/-
  Region 0 at the extended reals: what its three output arrays hold after the region, as functions of the two
  argument arrays. The logits array holds, at (p, q), the inner product of row p of the tokens and row q of the
  weights. The two columns of row statistics hold, at row p, the maximum of row p of the logits and the sum over q of
  exp (logit p q - that maximum): at each grid point the scratch columns hold the running (maximum, sum) of the
  row's tiles so far — one step of the tile recurrence per point, reset at a first tile — and a last tile copies
  them out; when the arguments are real numbers the running pair after all 50 tiles is (row maximum, row sum).
-/
import proofs.«107961_j68968584839721_2_alg».proof.Proof.KI.R0Pieces
import proofs.«107961_j68968584839721_2_alg».proof.Proof.KI.R0Cover
import proofs.«107961_j68968584839721_2_alg».proof.Proof.KI.Pay
import proofs.«107961_j68968584839721_2_alg».proof.Proof.SpecLaws

set_option maxRecDepth 16384

noncomputable section

open scoped BigOperators

namespace Cert.KernelIdeal.R0

open Cert.KernelIdeal Cert.KernelIdeal.Gen Idealize.ShloMosaic Idealize.ShloMosaic.TcCoe Idealize.SL.Sem Idealize.ShloMosaic.ValueIdx
open Idealize.ShloMosaic.Pipeline (Dat)
open Cert.Softmax

variable (V : (c : Dev nD) → (b : Ref sig .tc) → Buf (Elt Ideal) ((c : Thread nD τ).loc b)) (c : Dev nD)

/-- The token array and the weight array by rows. -/
abbrev Xr : Fin 2048 → Fin 2048 → EReal := fun p k => V c main_arg0 (ix2 p k)
abbrev Wr : Fin 32000 → Fin 2048 → EReal := fun q k => V c main_arg2 (ix2 q k)

/-- The logits array, the column of row maxima, the column of row sums. -/
def Glog : S2048x32000.Idx → EReal := fun i => logit (Xr V c) (Wr V c) (i 0) (i 1)
def Gmax : S2048x1.Idx → EReal := fun j => rowMax (logit (Xr V c) (Wr V c) (j 0))
def Gsum : S2048x1.Idx → EReal := fun j => rowSum (logit (Xr V c) (Wr V c) (j 0)) (rowMax (logit (Xr V c) (Wr V c) (j 0)))

/-! ## One point moves the running pair by one tile -/

theorem st_succ (r : Fin 32000 → EReal) (k : ℕ) : st r (k + 1) = step (tileOf r k) (st r k) := rfl

/-- The row of logits that row p of point t's token tile works on. -/
def rowOf (t : Fin cfg0.N) (p : Fin 1024) : Fin 32000 → EReal :=
  logit (Xr V c) (Wr V c) ⟨1024 * (t.val / 50) + p.val, cov_row_lt t p⟩

/-- At point t the tile product's row p is tile (t mod 50) of that row of logits. -/
theorem tile_eq (t : Fin cfg0.N) (p : Fin 1024) :
    (fun q : Fin 640 => k0_pay5 (F := Ideal) (iblk0 V c 0 t) (iblk0 V c 1 t) (ix2 p q)) = tileOf (rowOf V c t p) (t.val % 50) := by
  funext q
  have hq : 640 * (t.val % 50) + q.val < 32000 := by have := Nat.mod_lt t.val (show 0 < 50 by decide); have := q.isLt; omega
  rw [Pay.pay5_apply]
  unfold tileOf
  rw [dif_pos hq]
  unfold rowOf logit
  refine Finset.sum_congr rfl fun k _ => ?_
  rw [iblk0_0_apply V c t p k, iblk0_1_apply V c t q k]

/-- The same row serves a whole row of tiles: the point before a middle or last tile has the same token tile. -/
theorem rowOf_pred (t : Fin cfg0.N) (h0 : ¬t.val % 50 = 0) (p : Fin 1024) (h' : t.val - 1 < cfg0.N) :
    rowOf V c ⟨t.val - 1, h'⟩ p = rowOf V c t p := by
  unfold rowOf
  have key : ∀ a b : Fin 2048, a = b → logit (Xr V c) (Wr V c) a = logit (Xr V c) (Wr V c) b := fun a b h => h ▸ rfl
  exact key _ _ (Fin.ext (by show 1024 * ((t.val - 1) / 50) + p.val = 1024 * (t.val / 50) + p.val; omega))

/-- What "the scratch columns hold the running pair after this point's tile" says at row p. -/
def Inv (n : ℕ) (hn : n < cfg0.N) (p : Fin 1024) : Prop :=
  (outsAt0 V c n hn).2.2.2.1 (ix2 p 0) = (st (rowOf V c ⟨n, hn⟩ p) (n % 50 + 1)).1
  ∧ (outsAt0 V c n hn).2.2.2.2 (ix2 p 0) = (st (rowOf V c ⟨n, hn⟩ p) (n % 50 + 1)).2

/-- A first tile: the columns are reset to (-∞, 0) and moved by tile 0. -/
theorem inv_first (t : Fin cfg0.N) (h0 : t.val % 50 = 0) (p : Fin 1024) : Inv V c t.val t.isLt p := by
  have h1 : ¬t.val % 50 = 49 := by omega
  unfold Inv
  rw [outsAt0_A V c t h0 h1]
  unfold atA
  rw [pieceA_s0, pieceA_s1, Pay.pay7_apply _ _ _ (k0_pay2 (F := Ideal)) p, Pay.pay8_apply, Pay.pay1_apply, Pay.pay2_apply, tile_eq V c t p, h0]
  exact ⟨rfl, rfl⟩

/-- A middle or last tile: the columns the point before left are moved by this tile. -/
theorem inv_next (t : Fin cfg0.N) (h0 : ¬t.val % 50 = 0) (p : Fin 1024)
    (ih : Inv V c (t.val - 1) (Nat.lt_of_le_of_lt (Nat.sub_le _ _) t.isLt) p) : Inv V c t.val t.isLt p := by
  obtain ⟨ih0, ih1⟩ := ih
  rw [rowOf_pred V c t h0 p] at ih0 ih1
  have hk : (t.val - 1) % 50 + 1 = t.val % 50 := by omega
  rw [hk] at ih0 ih1
  unfold Inv
  rw [st_succ]
  simp only [Fin.eta]
  by_cases h1 : t.val % 50 = 49
  · rw [outsAt0_C V c t h0 h1]
    unfold atC
    rw [pieceC_s0, pieceC_s1, Pay.pay7_apply _ _ _ ((outsAt0 V c (t.val - 1) (Nat.lt_of_le_of_lt (Nat.sub_le _ _) t.isLt)).2.2.2.2) p, Pay.pay8_apply, tile_eq V c t p, ih0, ih1, Prod.mk.eta]
    exact ⟨rfl, rfl⟩
  · rw [outsAt0_B V c t h0 h1]
    unfold atB
    rw [pieceB_s0, pieceB_s1, Pay.pay7_apply _ _ _ ((outsAt0 V c (t.val - 1) (Nat.lt_of_le_of_lt (Nat.sub_le _ _) t.isLt)).2.2.2.2) p, Pay.pay8_apply, tile_eq V c t p, ih0, ih1, Prod.mk.eta]
    exact ⟨rfl, rfl⟩

/-- So at every point the scratch columns hold the running pair of the row's tiles so far. -/
theorem inv_all : ∀ (n : ℕ) (hn : n < cfg0.N) (p : Fin 1024), Inv V c n hn p
  | 0, hn, p => inv_first V c ⟨0, hn⟩ (Nat.zero_mod _) p
  | n + 1, hn, p => by
    by_cases h0 : (n + 1) % 50 = 0
    · exact inv_first V c ⟨n + 1, hn⟩ h0 p
    · exact inv_next V c ⟨n + 1, hn⟩ h0 p (inv_all n (Nat.lt_of_succ_lt hn) p)

/-- Every logit is a real number when the arguments are. -/
theorem rowOf_real (hX : ∀ p k, ∃ a : ℝ, Xr V c p k = (a : EReal)) (hW : ∀ q k, ∃ a : ℝ, Wr V c q k = (a : EReal))
    (t : Fin cfg0.N) (p : Fin 1024) (q : Fin 32000) : ∃ a : ℝ, rowOf V c t p q = (a : EReal) :=
  logit_real (Xr V c) (Wr V c) hX hW _ q

/-- The logits block after any point is the tile product. -/
theorem out2_eq (t : Fin cfg0.N) : (outsAt0 V c t.val t.isLt).1 = k0_pay4 (F := Ideal) (iblk0 V c 0 t) (iblk0 V c 1 t) := by
  by_cases h0 : t.val % 50 = 0
  · have h1 : ¬t.val % 50 = 49 := by omega
    rw [outsAt0_A V c t h0 h1]; unfold atA; rw [pieceA_2]
  · by_cases h1 : t.val % 50 = 49
    · rw [outsAt0_C V c t h0 h1]; unfold atC; rw [pieceC_2]
    · rw [outsAt0_B V c t h0 h1]; unfold atB; rw [pieceB_2]

/-- At a last tile the two small outputs hold the two new columns. -/
theorem out34_eq (t : Fin cfg0.N) (h1 : t.val % 50 = 49) :
    (outsAt0 V c t.val t.isLt).2.1 = (outsAt0 V c t.val t.isLt).2.2.2.1 ∧ (outsAt0 V c t.val t.isLt).2.2.1 = (outsAt0 V c t.val t.isLt).2.2.2.2 := by
  have h0 : ¬t.val % 50 = 0 := by omega
  rw [outsAt0_C V c t h0 h1]; unfold atC
  rw [pieceC_3, pieceC_4, pieceC_s0, pieceC_s1]
  exact ⟨rfl, rfl⟩

/-- After the region the logits array holds the logits. -/
theorem arr0_2 : (dat0 (F := Ideal) V c).arrAt 2 cfg0.N = Glog V c := by
  refine final0_2 V c (Glog V c) fun t p q => ?_
  rw [after0_2, out2_eq V c t]
  refine (Pay.pay4_apply _ _ p q).trans ?_
  unfold Glog logit
  exact Finset.sum_congr rfl fun k _ => by rw [iblk0_0_apply V c t p k, iblk0_1_apply V c t q k]

/-- When the arguments are real numbers, the first column of statistics ends holding the row maxima, -/
theorem arr0_3 (hX : ∀ p k, ∃ a : ℝ, Xr V c p k = (a : EReal)) (hW : ∀ q k, ∃ a : ℝ, Wr V c q k = (a : EReal)) :
    (dat0 (F := Ideal) V c).arrAt 3 cfg0.N = Gmax V c := by
  refine final0_3 V c (Gmax V c) fun t h49 p => ?_
  rw [after0_3, (out34_eq V c t h49).1, (inv_all V c t.val t.isLt p).1, h49]
  exact (st_final (rowOf V c t p) (rowOf_real V c hX hW t p)).1

/-- and the second the row sums of exponentials about the maximum. -/
theorem arr0_4 (hX : ∀ p k, ∃ a : ℝ, Xr V c p k = (a : EReal)) (hW : ∀ q k, ∃ a : ℝ, Wr V c q k = (a : EReal)) :
    (dat0 (F := Ideal) V c).arrAt 4 cfg0.N = Gsum V c := by
  refine final0_4 V c (Gsum V c) fun t h49 p => ?_
  rw [after0_4, (out34_eq V c t h49).2, (inv_all V c t.val t.isLt p).2, h49]
  exact (st_final (rowOf V c t p) (rowOf_real V c hX hW t p)).2

end Cert.KernelIdeal.R0

end
-- ==== Proof.RefSide.lean ====
/-
  The reference side of the softmax certificate, and the precondition read back.

  The reference program computes, operation by operation: the logits z = x · wᵀ; each row's maximum m, folded from -∞
  (and once more maximised against -∞, which changes nothing); e = exp (z - m); each row's sum s of e, from 0; and e / s.
  Read at an index (p, q) this is exp (z p q - max_k z p k) / Σ_k exp (z p k - max_k z p k): the softmax of row p of the
  logits at q, for every pair of argument arrays, with no finiteness assumed (max ⊥ a = a and 0 + s = s hold on all of
  the extended reals). The precondition says |x| < +∞ and |w| < +∞ entrywise, which on the extended reals is: every
  entry is a real number.
-/
import proofs.«107961_j68968584839721_2_alg».proof.Defs
import proofs.«107961_j68968584839721_2_alg».proof.Proof.Gen.ReferenceIdeal.Read
import proofs.«107961_j68968584839721_2_alg».proof.Proof.Gen.ReferenceIdeal
import proofs.«107961_j68968584839721_2_alg».proof.Proof.Gen.Pre_finite_inputs
import proofs.«107961_j68968584839721_2_alg».proof.Proof.Spec
import Idealize.ShloMosaic.Lib.ReduceAll
import Idealize.ShloMosaic.Lib.ValueIdx
import Idealize.ShloMosaic.PureOps.Ideal.Laws

noncomputable section

open scoped BigOperators

namespace Cert.RefSide

open Idealize.ShloMosaic Idealize.ShloMosaic.ValueIdx Idealize.ShloMosaic.TcCoe Idealize.SL.Sem Idealize.ShloMosaic.StableHlo

/-! ## The reference's result is the softmax of the logits -/

section Reference

open Cert.ReferenceIdeal Cert.ReferenceIdeal.Gen Cert.ReferenceIdeal.Read Cert.Softmax

/-- Row `p` of the logits of `x` against `w`. -/
abbrev lg (x0 : (⟨S2048x2048, .f32⟩ : BufTy).Contents (Elt Ideal)) (x2 : (⟨S32000x2048, .f32⟩ : BufTy).Contents (Elt Ideal))
    (p : Fin 2048) : Fin 32000 → EReal :=
  logit (fun p k => x0 (ix2 p k)) (fun q k => x2 (ix2 q k)) p

/-- The pattern of -∞ denotes ⊥. -/
theorem ofBits_negInf : Ideal.ofBits .f32 0xFF800000#32 = ⊥ := by simp [Ideal.ofBits, Ideal.ieee]

/-- The pattern of +∞ denotes ⊤. -/
theorem ofBits_posInf : Ideal.ofBits .f32 0x7F800000#32 = ⊤ := by simp [Ideal.ofBits, Ideal.ieee]

/-- The contraction's result at (p, q) is the logit. -/
theorem v0_at (x0 : (⟨S2048x2048, .f32⟩ : BufTy).Contents (Elt Ideal)) (x2 : (⟨S32000x2048, .f32⟩ : BufTy).Contents (Elt Ideal))
    (p : Fin 2048) (q : Fin 32000) :
    val_main_v0 (F := Ideal) x0 x2 (ix2 p q) = lg x0 x2 p q := by
  rw [val_main_v0_apply]
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 q k :=
    funext fun a => Fin.ext (by match a with | ⟨0, _⟩ => rfl | ⟨1, _⟩ => rfl)
  rw [el, er]

/-- The vocabulary axis is the one the two reductions drop. -/
theorem reduces_row : S2048x32000.Reduces [1] S2048 := by decide

/-- Row `p` with vocabulary coordinate `k` put back is (p, k). -/
theorem lift_row (h : S2048x32000.Reduces [1] S2048) (p : Fin 2048) (k : Fin (S2048x32000.size 1)) :
    h.lift (ix1 p) k = ix2 p (⟨k.val, k.isLt⟩ : Fin 32000) := by
  funext c; apply Fin.ext
  fin_cases c <;> rfl

/-- A max-reduce over the vocabulary axis from an initial value ⊥ is, at row `p`, the maximum of the row folded from ⊥. -/
theorem maxReduce_row (y : S2048x32000.Idx → EReal) (c : S_.Idx → EReal) (hc : c (Shape.Idx.first h_S_) = ⊥) (p : Fin 2048) :
    Host.reduce (FloatOps.maximumf (F := Ideal) (φ := .f32)) y c reducesTo_S2048x32000_S2048_d1 h_S_ (ix1 p)
      = rowMax (fun k => y (ix2 p k)) := by
  refine (Host.reduce_eq_fold_single _ y c _ reduces_row h_S_ (ix1 p)).trans ?_
  rw [hc]
  have hf : (y ∘ reduces_row.lift (ix1 p)) = fun k : Fin 32000 => y (ix2 p k) :=
    funext fun k => congrArg y (lift_row reduces_row p k)
  exact congrArg (fun f => Finset.fold max (⊥ : EReal) f (Finset.univ : Finset (Fin 32000))) hf

/-- The max-reduce from -∞ at row `p` is the row's maximum. -/
theorem v1_at (x0 : (⟨S2048x2048, .f32⟩ : BufTy).Contents (Elt Ideal)) (x2 : (⟨S32000x2048, .f32⟩ : BufTy).Contents (Elt Ideal))
    (p : Fin 2048) :
    val_main_v1 (F := Ideal) x0 x2 (ix1 p) = rowMax (lg x0 x2 p) := by
  unfold val_main_v1
  refine (maxReduce_row (val_main_v0 (F := Ideal) x0 x2) (val_main_cst (F := Ideal)) ofBits_negInf p).trans ?_
  exact congrArg rowMax (funext fun k => v0_at x0 x2 p k)

/-- The row maximum broadcast back over the row: maximising once more against -∞ changes nothing. -/
theorem v5_at (x0 : (⟨S2048x2048, .f32⟩ : BufTy).Contents (Elt Ideal)) (x2 : (⟨S32000x2048, .f32⟩ : BufTy).Contents (Elt Ideal))
    (p : Fin 2048) (q : Fin 32000) :
    val_main_v5 (F := Ideal) x0 x2 (ix2 p q) = rowMax (lg x0 x2 p) := by
  rw [val_main_v5_apply, val_main_v4_apply, val_main_v3_apply, val_main_v2_apply, val_main_cst_0_apply]
  have e : idx_main_v4 (idx_main_v5 (ix2 p q)) = ix1 p :=
    funext fun a => Fin.ext (by match a with | ⟨0, _⟩ => rfl)
  rw [e, v1_at]
  show max (Ideal.ofBits .f32 0xFF800000#32) (rowMax (lg x0 x2 p)) = rowMax (lg x0 x2 p)
  rw [ofBits_negInf]
  exact max_eq_right bot_le

/-- The exponential of the centred logit. -/
theorem v7_at (x0 : (⟨S2048x2048, .f32⟩ : BufTy).Contents (Elt Ideal)) (x2 : (⟨S32000x2048, .f32⟩ : BufTy).Contents (Elt Ideal))
    (p : Fin 2048) (q : Fin 32000) :
    val_main_v7 (F := Ideal) x0 x2 (ix2 p q) = Ideal.exp (lg x0 x2 p q - rowMax (lg x0 x2 p)) := by
  rw [val_main_v7_apply, val_main_v6_apply, v0_at, v5_at]
  rfl

/-- The add-reduce from 0 at row `p` is the row's sum of exponentials about its maximum. -/
theorem v8_at (x0 : (⟨S2048x2048, .f32⟩ : BufTy).Contents (Elt Ideal)) (x2 : (⟨S32000x2048, .f32⟩ : BufTy).Contents (Elt Ideal))
    (p : Fin 2048) :
    val_main_v8 (F := Ideal) x0 x2 (ix1 p) = rowSum (lg x0 x2 p) (rowMax (lg x0 x2 p)) := by
  rw [val_main_v8_apply, val_main_cst_1_apply]
  show Ideal.ofBits .f32 0x00000000#32 + _ = _
  rw [Ideal.ofBits_zero_f32, zero_add]
  unfold rowSum
  refine Finset.sum_congr rfl fun k _ => ?_
  have e : idx_main_v8 (ix1 p) k = ix2 p k :=
    funext fun a => Fin.ext (by match a with | ⟨0, _⟩ => rfl | ⟨1, _⟩ => rfl)
  rw [e, v7_at]

/-- The row sum broadcast back over the row. -/
theorem v10_at (x0 : (⟨S2048x2048, .f32⟩ : BufTy).Contents (Elt Ideal)) (x2 : (⟨S32000x2048, .f32⟩ : BufTy).Contents (Elt Ideal))
    (p : Fin 2048) (q : Fin 32000) :
    val_main_v10 (F := Ideal) x0 x2 (ix2 p q) = rowSum (lg x0 x2 p) (rowMax (lg x0 x2 p)) := by
  rw [val_main_v10_apply, val_main_v9_apply]
  have e : idx_main_v9 (idx_main_v10 (ix2 p q)) = ix1 p :=
    funext fun a => Fin.ext (by match a with | ⟨0, _⟩ => rfl)
  rw [e, v8_at]

/-- The reference's result array is the softmax of the logits, for every pair of argument arrays. -/
theorem ref_is_soft (x0 : (⟨Cert.ReferenceIdeal.S2048x2048, .f32⟩ : BufTy).Contents (Elt Ideal))
    (x2 : (⟨Cert.ReferenceIdeal.S32000x2048, .f32⟩ : BufTy).Contents (Elt Ideal)) :
    Cert.ReferenceIdeal.Read.val_main_v11 (F := Ideal) x0 x2 = Cert.Softmax.softArr x0 x2 := by
  funext i
  obtain ⟨p, q, rfl⟩ : ∃ (p : Fin 2048) (q : Fin 32000), i = ix2 p q := ⟨i 0, i 1, eq_ix2 i⟩
  rw [val_main_v11_apply, v7_at, v10_at]
  rfl

end Reference

/-! ## The precondition read back: every entry of the float arguments is a real number -/

section Precondition

/-- The scalar shape has one index. -/
instance : Subsingleton (⟨0, ![]⟩ : Shape).Idx := ⟨fun a b => funext fun d => d.elim0⟩

/-- An extended real whose absolute value is below +∞ is a real number. -/
theorem real_of_abs_lt (a : EReal) (h : Ideal.cmp .olt (max a (-a)) (Ideal.ofBits .f32 0x7F800000#32) = 1#1) :
    ∃ r : ℝ, a = (r : EReal) := by
  rw [ofBits_posInf] at h
  induction a using EReal.rec with
  | bot => simp [Ideal.cmp] at h
  | coe r => exact ⟨r, rfl⟩
  | top => simp [Ideal.cmp] at h

/-- `all (|x| < +∞)` came out 1: every entry of `x` is a real number. -/
theorem real_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) := by
  have h1 := Host.reduce_andi_all _ _ hr hu ix0 e i
  have hbc : broadcastInDim s ![] hb (constant (F := Ideal) (⟨0, ![]⟩ : Shape) .f32 0x7F800000#32) i
      = Ideal.ofBits .f32 0x7F800000#32 :=
    broadcastInDim_apply _ hb _ i ix0 (fun a => a.elim0)
  refine real_of_abs_lt (x i) ?_
  have h2 : Ideal.cmp .olt (max (x i) (-(x i)))
      (broadcastInDim s ![] hb (constant (F := Ideal) (⟨0, ![]⟩ : Shape) .f32 0x7F800000#32) i) = 1#1 := h1
  rw [hbc] at h2
  exact h2

/-- The precondition read back: on every device, every entry of both float arguments is a real number. -/
theorem fin_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg2) i = (a : EReal)) := by
  have h1 := congrFun (h c) ix0
  dsimp only [Cert.Pre_finite_inputs.fn] at h1
  obtain ⟨ha, hw⟩ := IntOp.andi_eq_one.1 h1
  exact ⟨fun i => real_of_all _ _ _ _ ha i, fun i => real_of_all _ _ _ _ hw i⟩

end Precondition

/-! ## The reference's run -/

section Run

open Cert.ReferenceIdeal Cert.Softmax

/-- The reference runs and its arguments end unchanged: the run of its operations, the result dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The reference's run with its result named: from any memory it terminates with the result array at the softmax of the
    logits of its two float arguments, and the three arguments unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v11)
          = softArr (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((Cert.ReferenceIdeal.Read.val_main_v11_eq _ _).trans (ref_is_soft _ _)), (h c).2⟩)
    (Cert.ReferenceIdeal.Value.run (F := Ideal) m' g')

/-- The same run from a memory that agrees on the arguments with a memory `m` of the kernel's program: the result is the
    softmax of the logits of `m`'s arguments. -/
theorem ref_run_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v11)
          = softArr (m ((c.tc : Thread Cert.KernelIdeal.nD Cert.KernelIdeal.τ).loc Cert.KernelIdeal.main_arg0))
              (m ((c.tc : Thread Cert.KernelIdeal.nD Cert.KernelIdeal.τ).loc Cert.KernelIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans (congrArg₂ softArr (hagree c).1 (hagree c).2.2), (h c).2⟩)
    (ref_run m' g')

end Run

end Cert.RefSide

end
-- ==== Proof.KI.Value.lean ====
/-
  The idealized kernel's result is the softmax of the logits, and so is the reference's.

  The second region divides exp (logit - row maximum) by the row sum, reading the three arrays the first region
  left: the logits, and per row the maximum and the sum of exponentials about it (the running pair after the last
  tile, which for real inputs is the row's own maximum and sum). Element (p, q) of the result is therefore
  exp (L p q - max_q L p) / Σ_q exp (L p q - max_q L p) with L the inner products of the rows of the two arguments:
  the softmax of row p of the logits at q, which is what the reference computes.
-/
import proofs.«107961_j68968584839721_2_alg».proof.Proof.KI.Run
import proofs.«107961_j68968584839721_2_alg».proof.Proof.KI.R1Value
import proofs.«107961_j68968584839721_2_alg».proof.Proof.KI.R0State
import proofs.«107961_j68968584839721_2_alg».proof.Proof.RefSide

noncomputable section

open scoped BigOperators

namespace Cert.KernelIdeal.Value

open Cert.KernelIdeal Cert.KernelIdeal.Gen Idealize.ShloMosaic Idealize.ShloMosaic.TcCoe Idealize.SL.Sem Idealize.ShloMosaic.ValueIdx
open Cert.Softmax

/-- With the three entry arrays of the second region at the logits, the row maxima and the row sums of exponentials,
    its output at `i` is the softmax of row `i 0` of the logits at `i 1`. The rows are any functions here. -/
theorem G1_of_stats (L : Fin 2048 → Fin 32000 → EReal) (i : S2048x32000.Idx) :
    R1.G1 (fun i => L (i 0) (i 1)) (fun j => rowMax (L (j 0))) (fun j => rowSum (L (j 0)) (rowMax (L (j 0)))) i
      = soft (L (i 0)) (i 1) := rfl

/-- The same for the arrays the first region leaves, as functions of the contents `V` it was entered with. -/
theorem G1_of_entry (V : (c : Dev nD) → (b : Ref sig .tc) → Buf (Elt Ideal) ((c : Thread nD τ).loc b)) (c : Dev nD) :
    R1.G1 (R0.Glog V c) (R0.Gmax V c) (R0.Gsum V c) = softArr (V c main_arg0) (V c main_arg2) :=
  funext fun i => G1_of_stats (logit (R0.Xr V c) (R0.Wr V c)) i

/-- The result array after the second region is the softmax of the logits of the two arguments as launched. -/
theorem kernel_value [Cert.Pre_finite_inputs.Facts] (m : (ℓ : Loc nD τ sig) → Buf (Elt Ideal) ℓ) (ρ : Dev nD → PrngReg)
    (hpre : Cert.Pre_KernelIdeal m) (c : Dev nD) :
    (R1.dat1 (F := Ideal) (Run.V1 m ρ) c).arrAt 3 cfg1.N
      = Cert.Softmax.softArr (m ((c.tc : Thread nD τ).loc main_arg0)) (m ((c.tc : Thread nD τ).loc main_arg2)) := by
  have hfin := Cert.RefSide.fin_of_pre m hpre c
  have hX : ∀ p k, ∃ a : ℝ, R0.Xr (Run.V0 m ρ) c p k = (a : EReal) := fun p k => hfin.1 (ix2 p k)
  have hW : ∀ q k, ∃ a : ℝ, R0.Wr (Run.V0 m ρ) c q k = (a : EReal) := fun q k => hfin.2 (ix2 q k)
  rw [R1.final1, Run.V1_main_v0_0, Run.V1_main_v0_1, Run.V1_main_v0_2,
    R0.arr0_2, R0.arr0_3 _ _ hX hW, R0.arr0_4 _ _ hX hW]
  exact G1_of_entry (Run.V0 m ρ) c

/-- The idealized kernel and the idealized reference, from memories agreeing on the arguments, both run and end with
    the same result array: the softmax of the logits. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m g m' g' hpre hagree =>
    ⟨fun c => Cert.Softmax.softArr (m ((c.tc : Thread nD τ).loc main_arg0)) (m ((c.tc : Thread nD τ).loc main_arg2)),
      (θ_run _ _ _).mono (fun r h c => ⟨(h c).1.trans (kernel_value m g hpre c), (h c).2⟩)
        (Run.run_result (F := Ideal) m g),
      Cert.RefSide.ref_run_of_agree m m' g' hagree⟩

end Cert.KernelIdeal.Value

end
-- ==== Proof.lean ====
/-
  The proof of this certificate's claims. The kernel is two grid regions: the first multiplies a block of token rows
  by a tile of 640 vocabulary rows on the matrix unit, stores the tile of logits, and keeps per row a running maximum
  and a running sum of exponentials about it, rescaled whenever the maximum moves; the second divides
  exp (logit - row maximum) by the row sum. The reference is the softmax of the logits. At the extended reals and on
  real inputs the two results are equal, because the running pair after the last tile is the row's maximum and its
  sum of exponentials about that maximum. The three frames are the programs' runs, and the one idealization step,
  widening a value that was narrowed to bf16, is the identity at the extended reals.
-/
import proofs.«107961_j68968584839721_2_alg».proof.Defs
import proofs.«107961_j68968584839721_2_alg».proof.Proof.Gen.Kernel
import proofs.«107961_j68968584839721_2_alg».proof.Proof.Gen.KernelIdeal
import proofs.«107961_j68968584839721_2_alg».proof.Proof.Gen.ReferenceIdeal
import proofs.«107961_j68968584839721_2_alg».proof.Proof.Gen.Pre_finite_inputs
import proofs.«107961_j68968584839721_2_alg».proof.Proof.KB.Run
import proofs.«107961_j68968584839721_2_alg».proof.Proof.KI.Run
import proofs.«107961_j68968584839721_2_alg».proof.Proof.KI.Value
import proofs.«107961_j68968584839721_2_alg».proof.Proof.RefSide

noncomputable section

namespace Cert.Proof

open Idealize.ShloMosaic Idealize.SL.Sem

/-- The narrowing to bf16 and widening back that the idealization erased is the identity at the extended reals, and
    the rounding through bf16 at the words. -/
theorem preserves : Cert.preserves_Kernel_KernelIdeal := IdealRules.truncf_extf.statement _ .f32 .bf16

theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ, fun m ρ _ => Cert.KernelIdeal.Run.frame m ρ, Cert.RefSide.frame_ref,
    preserves, Cert.KernelIdeal.Value.algebraic⟩

end Cert.Proof

end
